-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4096x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S4096x1024 : Shape := ⟨2, ![4096, 1024]⟩
abbrev S1024x1024 : Shape := ⟨2, ![1024, 1024]⟩
abbrev S1024 : Shape := ⟨1, ![1024]⟩
abbrev S512x1024 : Shape := ⟨2, ![512, 1024]⟩
abbrev S1x1024 : Shape := ⟨2, ![1, 1024]⟩
abbrev S256x1024 : Shape := ⟨2, ![256, 1024]⟩
abbrev S1024x4096 : Shape := ⟨2, ![1024, 4096]⟩
abbrev S256x4096 : Shape := ⟨2, ![256, 4096]⟩
abbrev S256 : Shape := ⟨1, ![256]⟩
abbrev S256x1 : Shape := ⟨2, ![256, 1]⟩

abbrev nBuf : Space → Nat
  | .hbm => 14
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S4096x1024, .bf16⟩
  | .hbm, ⟨11, _⟩ => ⟨S4096x1024, .bf16⟩
  | .hbm, ⟨12, _⟩ => ⟨S4096x1024, .bf16⟩
  | .hbm, ⟨13, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024, .f32⟩
  | .local _ .vmem, ⟨4, _⟩ => ⟨S1024x1024, .bf16⟩
  | .local _ .vmem, ⟨5, _⟩ => ⟨S1024, .f32⟩
  | .local _ .vmem, ⟨6, _⟩ => ⟨S1024x1024, .bf16⟩
  | .local _ .vmem, ⟨7, _⟩ => ⟨S1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S256x1024, .bf16⟩
  | .local _ .vmem, ⟨15, _⟩ => ⟨S256x1024, .bf16⟩
  | .local _ .vmem, ⟨16, _⟩ => ⟨S4096x1024, .bf16⟩
  | .local _ .vmem, ⟨17, _⟩ => ⟨S4096x1024, .bf16⟩
  | .local _ .vmem, ⟨18, _⟩ => ⟨S256x1024, .f32⟩
  | .local _ .vmem, ⟨19, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4096x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  transposes_S4096x1024_p1_0_S1024x4096 : S4096x1024.Transposes [1, 0] S1024x4096
  reduces_S256x4096_S256 : S256x4096.Reduces [1] S256
  shapeCasts_S256_S256x1 : S256.ShapeCasts S256x1
  broadcasts_S256x1_S256x4096 : S256x1.Broadcasts S256x4096
  broadcasts_S256x1_S256x1024 : S256x1.Broadcasts S256x1024
  dot_S512x1024_S1024x1024_S512x1024_1_0_0_1_n_n_wf : DotDims.WF S512x1024 S1024x1024 S512x1024 [1] [0] [0] [1] [] []
  dot_S256x1024_S1024x4096_S256x4096_1_0_0_1_n_n_wf : DotDims.WF S256x1024 S1024x4096 S256x4096 [1] [0] [0] [1] [] []
  dot_S256x4096_S4096x1024_S256x1024_1_0_0_1_n_n_wf : DotDims.WF S256x4096 S4096x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S4096x1024.size a
  hwx0_7 : ∀ i : grid0.Coords, EltTy.bits .bf16 = 32 ∨ (Rect.block (s := S4096x1024) S512x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1024.size a ≤ S4096x1024.size a
  hwx0_8 : ∀ i : grid0.Coords, EltTy.bits .bf16 = 32 ∨ (Rect.block (s := S4096x1024) S512x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1024.size a ≤ S4096x1024.size a
  hwx0_9 : ∀ i : grid0.Coords, EltTy.bits .bf16 = 32 ∨ (Rect.block (s := S4096x1024) S512x1024.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S4096x1024.size a
  hwx1_0 : ∀ i : grid1.Coords, EltTy.bits .bf16 = 32 ∨ (Rect.block (s := S4096x1024) S256x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x1024.size a ≤ S4096x1024.size a
  hwx1_1 : ∀ i : grid1.Coords, EltTy.bits .bf16 = 32 ∨ (Rect.block (s := S4096x1024) S4096x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x1024.size a ≤ S4096x1024.size a
  hwx1_2 : ∀ i : grid1.Coords, EltTy.bits .bf16 = 32 ∨ (Rect.block (s := S4096x1024) S4096x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x1024.size a ≤ S4096x1024.size a
  hwx1_3 : ∀ i : grid1.Coords, EltTy.bits .f32 = 32 ∨ (Rect.block (s := S4096x1024) S256x1024.size (cc1_transform_3 i) (hinb1_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf
def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3_0) S512x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v3_1) S512x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v3_2) S512x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v3_0) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_1) S4096x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3_2) S4096x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S256x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S1024x4096 : Shape := ⟨2, ![1024, 4096]⟩
abbrev S4096x4096 : Shape := ⟨2, ![4096, 4096]⟩
abbrev S4096 : Shape := ⟨1, ![4096]⟩
abbrev S4096x1 : Shape := ⟨2, ![4096, 1]⟩

abbrev nBuf : Space → Nat
  | .hbm => 42
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S4096x1024, .f32⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S1x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1024x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S4096x1, .f32⟩
  | .hbm, ⟨33, _⟩ => ⟨S4096x4096, .f32⟩
  | .hbm, ⟨34, _⟩ => ⟨S4096x4096, .f32⟩
  | .hbm, ⟨35, _⟩ => ⟨S4096x4096, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x4096, .f32⟩
  | .hbm, ⟨40, _⟩ => ⟨S4096x4096, .f32⟩
  | .hbm, ⟨41, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  transposes_S4096x1024_S1024x4096_1_0 : S4096x1024.Transposes [1, 0] S1024x4096
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  dot_S4096x1024_S1024x1024_S4096x1024_1_0_0_1_n_n_wf : DotDims.WF S4096x1024 S1024x1024 S4096x1024 [1] [0] [0] [1] [] []
  dot_S4096x1024_S1024x4096_S4096x4096_1_0_0_1_n_n_wf : DotDims.WF S4096x1024 S1024x4096 S4096x4096 [1] [0] [0] [1] [] []
  dot_S4096x4096_S4096x1024_S4096x1024_1_0_0_1_n_n_wf : DotDims.WF S4096x4096 S4096x1024 S4096x1024 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.KernelRun.lean ====
/-
  The idealized kernel program's run, with the final memory named.

  The program is a stretch of host operations (three changes of float format) followed by two kernel regions. The
  library's theorem for a program cut into such segments gives, for every weakly fair execution, termination without
  a fault in a state whose every unscoped buffer holds the last segment boundary's contents. Those contents are a fold
  through the program: the launch memory, then the host operations' results, then each region's arrays at what its
  grid points wrote back. Read at the result buffer they are the second region's output array; read at an argument
  they are the launch memory.
-/
import proofs.«120721_j30837865185734_2_alg».proof.Proof.Gen.KernelIdeal.Frame

set_option maxRecDepth 16384

noncomputable section

namespace Cert.SelfAttn.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, in a state whose unscoped buffers hold the contents
    at the last segment boundary. -/
theorem final_contents : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The same run with the result buffer read at the second region's output array after its last grid point, and
    each argument read back to the launch memory. -/
theorem run_result : θ_run defs (onTc (τ := τ) (main (F := F))) ⟨m, fun _ => 0, ρ⟩ (fun r => ∀ c : Dev nD,
      r.2.mem ((c.tc : Thread nD τ).loc main_v4) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
      ⟨(h c _ (mem_uc main_v4 (by decide))).trans (W3_arr m ρ c 3),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c)⟩)
    (final_contents m ρ)

end Cert.SelfAttn.KernelRun

end
-- ==== Proof.Entry.lean ====
/-
  What the first region finds in its input arrays.

  Before the first region the program converts each of the three weight matrices to a narrower float format. At the
  ideal instance a float is an extended real and a change of format is the identity, so each converted matrix is the
  launched weight matrix, entry by entry. No host operation writes an argument, so the token array and the three bias
  vectors are found as launched.
-/
import proofs.«120721_j30837865185734_2_alg».proof.Proof.Gen.KernelIdeal.Frame
import Idealize.ShloMosaic.Lib.StableHlo.Run
import Idealize.ShloMosaic.Lib.ValueIdx

set_option maxRecDepth 16384

noncomputable section

namespace Cert.SelfAttn.Entry

open Idealize.ShloMosaic Idealize.ShloMosaic.TcCoe Idealize.ShloMosaic.Tactic
open Idealize.SL Idealize.SL.Sem
open Cert.KernelIdeal Cert.KernelIdeal.Gen

variable (m : (ℓ : Loc nD τ sig) → Buf (Elt Ideal) ℓ) (ρ : Dev nD → PrngReg)

/-- The converted query weights are the launched query weights. -/
theorem weights_q (c : Dev nD) :
    (V1 m ρ c main_v0 : S1024x1024.Idx → EReal) = (m ((c : Thread nD τ).loc main_arg1) : S1024x1024.Idx → EReal) := by
  dsimp only [V1, W1, hostOps0]
  after_results
  rfl

/-- The converted key weights are the launched key weights. -/
theorem weights_k (c : Dev nD) :
    (V1 m ρ c main_v1 : S1024x1024.Idx → EReal) = (m ((c : Thread nD τ).loc main_arg3) : S1024x1024.Idx → EReal) := by
  dsimp only [V1, W1, hostOps0]
  after_results
  rfl

/-- The converted value weights are the launched value weights. -/
theorem weights_v (c : Dev nD) :
    (V1 m ρ c main_v2 : S1024x1024.Idx → EReal) = (m ((c : Thread nD τ).loc main_arg5) : S1024x1024.Idx → EReal) := by
  dsimp only [V1, W1, hostOps0]
  after_results
  rfl

/-- The token array is found as launched. -/
theorem tokens (c : Dev nD) :
    (V1 m ρ c main_arg0 : S4096x1024.Idx → EReal) = (m ((c : Thread nD τ).loc main_arg0) : S4096x1024.Idx → EReal) := by
  dsimp only [V1, W1, hostOps0]
  after_results

/-- The query bias is found as launched. -/
theorem bias_q (c : Dev nD) :
    (V1 m ρ c main_arg2 : S1024.Idx → EReal) = (m ((c : Thread nD τ).loc main_arg2) : S1024.Idx → EReal) := by
  dsimp only [V1, W1, hostOps0]
  after_results

/-- The key bias is found as launched. -/
theorem bias_k (c : Dev nD) :
    (V1 m ρ c main_arg4 : S1024.Idx → EReal) = (m ((c : Thread nD τ).loc main_arg4) : S1024.Idx → EReal) := by
  dsimp only [V1, W1, hostOps0]
  after_results

/-- The value bias is found as launched. -/
theorem bias_v (c : Dev nD) :
    (V1 m ρ c main_arg6 : S1024.Idx → EReal) = (m ((c : Thread nD τ).loc main_arg6) : S1024.Idx → EReal) := by
  dsimp only [V1, W1, hostOps0]
  after_results

end Cert.SelfAttn.Entry

end
-- ==== Proof.LibMatmulAt.lean ====
/-
  A matrix product with one contracted axis, read at one entry.

  For dimension numbers that contract the left operand's second axis with the right operand's first — the left
  operand [a, n], the right operand [n, b], the result [a, b], no batch axes — the entry (p, q) of the product is
  the sum over k of left (p, k) times right (k, q). The dimension numbers enter only through four facts about where
  the two operand indices sit (the left one reads the result's row and the contraction position, the right one the
  contraction position and the result's column); a caller proves those four facts for its own record, each by unfolding
  the record's two membership tests.

  `contr_sum_ix2`      the contraction's sum re-indexed by the one contracted coordinate;
  `matmul_zero_ix2`    a `tpu.matmul` into the zero accumulator at the ideal instance;
  `dotGeneral_ix2`     the host's `dot_general` at the ideal instance.
-/
import Idealize.ShloMosaic.PureOps.Ideal.Laws
import Idealize.ShloMosaic.Lib.ValueIdx

noncomputable section

open scoped BigOperators

namespace Idealize.ShloMosaic.MatmulAt

open Idealize.ShloMosaic Idealize.ShloMosaic.ValueIdx

variable {a n b : ℕ}

/-- The sum over the contraction positions of a one-axis contraction is the sum over the contracted coordinate
    `k : Fin n`, the left operand read at `(p, k)` and the right one at `(k, q)`. -/
theorem contr_sum_ix2 (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (l : (⟨2, ![a, n]⟩ : Shape).Idx → EReal) (r : (⟨2, ![n, b]⟩ : Shape).Idx → EReal) (p : Fin a) (q : Fin b) :
    ∑ k : D.contr.Idx, l (D.lhsIdx (ix2 p q) k) * r (D.rhsIdx (ix2 p q) k) = ∑ k : Fin n, l (ix2 p k) * r (ix2 k q) := by
  rw [← Equiv.sum_comp (contrEquiv1 D n hr hs).symm]
  refine Finset.sum_congr rfl fun k _ => ?_
  have hk := contrEquiv1_symm_val D n hr hs k
  have el : D.lhsIdx (ix2 p q) ((contrEquiv1 D n hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D n hr hs).symm k) = ix2 k q := funext fun ax => Fin.ext (by
    match ax with
    | ⟨0, _⟩ => exact (hr0 _ _).trans hk
    | ⟨1, _⟩ => exact hr1 _ _)
  rw [el, er]

/-- A `tpu.matmul` of an [a, n] by an [n, b] operand into the zero accumulator, at the ideal instance, read at
    `(p, q)`: the sum over `k` of left `(p, k)` times right `(k, q)`. -/
theorem matmul_zero_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    matmul D prec l r (constant ⟨2, ![a, b]⟩ .f32 0x00000000#32) (ix2 p q) = ∑ k : Fin n, l (ix2 p k) * r (ix2 k q) :=
  (Ideal.matmul_constant_zero_apply D prec l r (ix2 p q)).trans (contr_sum_ix2 D hr hs hl0 hl1 hr0 hr1 l r p q)

/-- The host's `dot_general` of an [a, n] by an [n, b] operand, at the ideal instance, read at `(p, q)`: the same sum. -/
theorem dotGeneral_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    Host.dotGeneral D prec l r (ix2 p q) = ∑ k : Fin n, l (ix2 p k) * r (ix2 k q) :=
  (Ideal.dotGeneral_apply D prec .single l r (ix2 p q)).trans (contr_sum_ix2 D hr hs hl0 hl1 hr0 hr1 l r p q)

end Idealize.ShloMosaic.MatmulAt

end
-- ==== Proof.LibRowMax.lean ====
/-
  The largest entry along the last axis, read at an index.

  At the ideal instance a float is an extended real and a maximum is the exact fold of `max` in any order. For an
  `[a, b]` matrix, a kernel's `vector.multi_reduction <maximumf>` over axis 1 started from the word of `-∞`, read at row
  `p`, is the fold of `max` from that word's value over the row's entries (`laneMax_row`). For an `[a, b, c]` array,
  the host's `reduce` with a `maximum` body over axis 2, read at `(p, q)`, is the fold of `max` from the initial value
  over the entries `(p, q, k)` (`hostMax_last3`); `lift_last3` is the index fact under it: over `(p, q)` the index
  with the dropped last coordinate `k` put back is `(p, q, k)`.
-/
import Idealize.ShloMosaic.Lib.IdealHost

namespace Cert.LibRowMax

open Idealize.ShloMosaic Idealize.ShloMosaic.ValueIdx

variable {a b c : ℕ}

/-- Over row `p` of an `[a, b]` array, the index whose dropped (column) coordinate is `k` is `(p, k)`. -/
theorem lift_row (h : (⟨2, ![a, b]⟩ : Shape).Reduces [1] ⟨1, ![a]⟩) (p : Fin a) (k : Fin b) :
    h.lift (ix1 p) k = ix2 p k := by
  funext d
  match d with
  | ⟨0, _⟩ => exact Fin.ext rfl
  | ⟨1, _⟩ => exact Fin.ext rfl

/-- A kernel's f32 maximum along the columns started from the word of `-∞`, read at row `p`: the fold of `max` from
    that word's value over the row's entries. -/
theorem laneMax_row (v : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (p : Fin a) :
    multiReduction .maximumf [1] ⟨1, ![a]⟩ v 0xFF800000#32 h hφ hacc (ix1 p)
      = (Finset.univ : Finset (Fin b)).fold max (Ideal.ofBits .f32 0xFF800000#32) fun k => v (ix2 p k) := by
  refine (multiReduction_maximumf_eq_fold v 0xFF800000#32 h hφ hacc (ix1 p)).trans ?_
  refine (h.fold_filter_drop_single _ _ v (ix1 p)).trans ?_
  exact congrArg (fun f => Finset.fold max (Ideal.ofBits .f32 0xFF800000#32) f (Finset.univ : Finset (Fin b)))
    (funext fun k => congrArg v (lift_row h p k))

/-- Over `(p, q)` of an `[a, b, c]` array reduced along its last axis, the index whose dropped coordinate is `k`
    is `(p, q, k)`. -/
theorem lift_last3 (h : (⟨3, ![a, b, c]⟩ : Shape).Reduces [2] ⟨2, ![a, b]⟩) (p : Fin a) (q : Fin b) (k : Fin c) :
    h.lift (ix2 p q) k = ix3 p q k := by
  funext d
  match d with
  | ⟨0, _⟩ => exact Fin.ext rfl
  | ⟨1, _⟩ => exact Fin.ext rfl
  | ⟨2, _⟩ => exact Fin.ext rfl

/-- The host's `reduce` with a `maximum` body along the last axis of an `[a, b, c]` array, read at `(p, q)`: the
    fold of `max` from the initial value over the entries `(p, q, k)`. -/
theorem hostMax_last3 {u : Shape} (x : FVec Ideal ⟨3, ![a, b, c]⟩ .f32) (init : FVec Ideal u .f32)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (q : Fin b) :
    Host.reduce (FloatOps.maximumf (F := Ideal) (φ := .f32)) x init h' hu (ix2 p q)
      = (Finset.univ : Finset (Fin c)).fold max (init (Shape.Idx.first hu)) fun k => x (ix3 p q k) := by
  refine (Host.reduce_eq_fold_single (FloatOps.maximumf (F := Ideal) (φ := .f32)) x init h' h hu (ix2 p q)).trans ?_
  exact congrArg (fun f => Finset.fold max (init (Shape.Idx.first hu)) f (Finset.univ : Finset (Fin c)))
    (funext fun k => congrArg x (lift_last3 h p q k))

end Cert.LibRowMax
-- ==== Proof.LibRowSum.lean ====
/-
  Row sums read at a row.

  A sum along the columns of an `[a, b]` array, read at row `p`, is the sum over `k : Fin b` of the entries `(p, k)`:
  for a kernel's lane reduction `vector.multi_reduction <add>` over axis 1 started from the zero word (`laneSum_row`),
  and for the host's `reduce` with `add` over axis 1, which puts its initial value in front (`hostSum_row`).
  Both at the ideal instance, where a float sum is the exact sum of extended reals in any order.
  `lift_row` is the index fact under both: over row `p`, the index with column `k` put back in is `(p, k)`.
-/
import Idealize.ShloMosaic.Lib.IdealHost

namespace Cert.LibRowSum

open Idealize.ShloMosaic Idealize.ShloMosaic.ValueIdx

/-- Over row `p` of an `[a, b]` array, the index whose dropped (column) coordinate is `k` is `(p, k)`. -/
theorem lift_row {a b : ℕ} (h : (⟨2, ![a, b]⟩ : Shape).Reduces [1] ⟨1, ![a]⟩) (p : Fin a) (k : Fin b) :
    h.lift (ix1 p) k = ix2 p k := by
  funext c
  match c with
  | ⟨0, _⟩ => exact Fin.ext rfl
  | ⟨1, _⟩ => exact Fin.ext rfl

/-- A kernel's f32 lane sum over the columns, started from the zero word, read at row `p`: the sum of the row. -/
theorem laneSum_row {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ v 0x00000000#32 h hφ hacc (ix1 p) = ∑ k : Fin b, v (ix2 p k) :=
  (Ideal.multiReduction_add_single v 0x00000000#32 h hφ hacc (ix1 p)).trans
    (Finset.sum_congr rfl fun k _ => congrArg v (lift_row h p k))

/-- The host's float sum over the columns from the initial array `init`, read at row `p`: the initial value plus
    the sum of the row. -/
theorem hostSum_row {a b : ℕ} {u : Shape} {φ : FTy} (x : FVec Ideal ⟨2, ![a, b]⟩ φ) (init : u.Idx → Ideal φ)
    (h' : (⟨2, ![a, b]⟩ : Shape).ReducesTo [1] ⟨1, ![a]⟩) (hu : 0 < u.numel) (p : Fin a) :
    Host.reduceAdd x init h' hu (ix1 p) = init (Shape.Idx.first hu) + ∑ k : Fin b, x (ix2 p k) := by
  have h : (⟨2, ![a, b]⟩ : Shape).Reduces [1] ⟨1, ![a]⟩ := ⟨h'.1, Nat.one_pos, h'.2⟩
  refine (hostReduceAdd_apply x init h' hu (ix1 p)).trans ((Ideal.hostReduceAdd_single h' h x _ (ix1 p)).trans ?_)
  exact congrArg (init (Shape.Idx.first hu) + ·) (Finset.sum_congr rfl fun k _ => congrArg x (lift_row h p k))

end Cert.LibRowSum
-- ==== Proof.LibColumnCast.lean ====
/-
  A vector cast to a one-column matrix: the companion of the library's row forms `shapeCast_a_1a_apply` /
  `shapeCast_1a_a_apply` (a trailing unit axis instead of a leading one).
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.LibColumnCast
-- ==== Proof.LibColBroadcast.lean ====
/-
  One column broadcast over many: the companion of the library's row form `broadcastTo_1b_ab_apply`.
-/
import Idealize.ShloMosaic.Lib.Pipeline.Value
import Idealize.ShloMosaic.Lib.ValueIdx

namespace Cert.LibColBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColBroadcast
-- ==== Proof.Payload.lean ====
/-
  The arithmetic of the two kernel bodies read at one index.

  The first body computes, for a block of 512 tokens, three affine layers: the block's rows against a weight matrix,
  plus a bias row, and for the first of the three a further factor 2^-5. The second body computes, for a block of 256
  query rows against all 4096 keys and values, the softmax-weighted mix of the values: scores are the query row
  against each key row, a weight is exp (score - row maximum), and the mixed sum is divided by the sum of the weights.

  At the ideal instance every float is an extended real and a change of float format is the identity, so each stored
  value at (p, q) is the textbook expression. The proofs push the index through the pointwise operations (each by
  definitional unfolding) and use one lemma per non-pointwise operation: a matrix product into the zero accumulator, a
  row maximum, a row sum, the casts [a] -> [1, a] and [a] -> [a, 1], the broadcasts [1, b] -> [a, b] and
  [a, 1] -> [a, b], and a transpose.
-/
import proofs.«120721_j30837865185734_2_alg».proof.Proof.Gen.KernelIdeal.Skeleton
import proofs.«120721_j30837865185734_2_alg».proof.Proof.LibMatmulAt
import proofs.«120721_j30837865185734_2_alg».proof.Proof.LibRowMax
import proofs.«120721_j30837865185734_2_alg».proof.Proof.LibRowSum
import proofs.«120721_j30837865185734_2_alg».proof.Proof.LibColumnCast
import proofs.«120721_j30837865185734_2_alg».proof.Proof.LibColBroadcast
import Idealize.ShloMosaic.Lib.ValueIdx
import Idealize.ShloMosaic.Lib.Pipeline.Value
import Idealize.ShloMosaic.Lib.ValueLayout

noncomputable section

namespace Cert.SelfAttn

open Cert.KernelIdeal Cert.KernelIdeal.Gen Idealize.ShloMosaic Idealize.ShloMosaic.ValueIdx

namespace Payload

/-! ## Where the operand indices of the three products sit

For each of the three dimension records (all contract the left operand's second axis with the right operand's first):
the left index reads the result's row and the contraction position, the right index the contraction position and the
result's column. -/

theorem layer_l0 (i : S512x1024.Idx) (q : dot_S512x1024_S1024x1024_S512x1024_1_0_0_1_n_n.contr.Idx) :
    (dot_S512x1024_S1024x1024_S512x1024_1_0_0_1_n_n.lhsIdx i q (0 : Fin 2)).val = (i (0 : Fin 2)).val := by
  unfold DotDims.lhsIdx
  rw [dif_neg (show ¬(0 : Fin S512x1024.rank) ∈ dot_S512x1024_S1024x1024_S512x1024_1_0_0_1_n_n.lhsBatch by decide),
    dif_pos (show (0 : Fin S512x1024.rank) ∈ dot_S512x1024_S1024x1024_S512x1024_1_0_0_1_n_n.lhsNonContracting by decide)]
  rfl

theorem layer_l1 (i : S512x1024.Idx) (q : dot_S512x1024_S1024x1024_S512x1024_1_0_0_1_n_n.contr.Idx) :
    (dot_S512x1024_S1024x1024_S512x1024_1_0_0_1_n_n.lhsIdx i q (1 : Fin 2)).val = (q ⟨0, by decide⟩).val :=
  dot_S512x1024_S1024x1024_S512x1024_1_0_0_1_n_n.lhsIdx_val_of_single rfl i q

theorem layer_r0 (i : S512x1024.Idx) (q : dot_S512x1024_S1024x1024_S512x1024_1_0_0_1_n_n.contr.Idx) :
    (dot_S512x1024_S1024x1024_S512x1024_1_0_0_1_n_n.rhsIdx i q (0 : Fin 2)).val = (q ⟨0, by decide⟩).val :=
  dot_S512x1024_S1024x1024_S512x1024_1_0_0_1_n_n.rhsIdx_val_of_single rfl i q

theorem layer_r1 (i : S512x1024.Idx) (q : dot_S512x1024_S1024x1024_S512x1024_1_0_0_1_n_n.contr.Idx) :
    (dot_S512x1024_S1024x1024_S512x1024_1_0_0_1_n_n.rhsIdx i q (1 : Fin 2)).val = (i (1 : Fin 2)).val := by
  unfold DotDims.rhsIdx
  rw [dif_neg (show ¬(1 : Fin S1024x1024.rank) ∈ dot_S512x1024_S1024x1024_S512x1024_1_0_0_1_n_n.rhsBatch by decide),
    dif_pos (show (1 : Fin S1024x1024.rank) ∈ dot_S512x1024_S1024x1024_S512x1024_1_0_0_1_n_n.rhsNonContracting by decide)]
  rfl

theorem scores_l0 (i : S256x4096.Idx) (q : dot_S256x1024_S1024x4096_S256x4096_1_0_0_1_n_n.contr.Idx) :
    (dot_S256x1024_S1024x4096_S256x4096_1_0_0_1_n_n.lhsIdx i q (0 : Fin 2)).val = (i (0 : Fin 2)).val := by
  unfold DotDims.lhsIdx
  rw [dif_neg (show ¬(0 : Fin S256x1024.rank) ∈ dot_S256x1024_S1024x4096_S256x4096_1_0_0_1_n_n.lhsBatch by decide),
    dif_pos (show (0 : Fin S256x1024.rank) ∈ dot_S256x1024_S1024x4096_S256x4096_1_0_0_1_n_n.lhsNonContracting by decide)]
  rfl

theorem scores_l1 (i : S256x4096.Idx) (q : dot_S256x1024_S1024x4096_S256x4096_1_0_0_1_n_n.contr.Idx) :
    (dot_S256x1024_S1024x4096_S256x4096_1_0_0_1_n_n.lhsIdx i q (1 : Fin 2)).val = (q ⟨0, by decide⟩).val :=
  dot_S256x1024_S1024x4096_S256x4096_1_0_0_1_n_n.lhsIdx_val_of_single rfl i q

theorem scores_r0 (i : S256x4096.Idx) (q : dot_S256x1024_S1024x4096_S256x4096_1_0_0_1_n_n.contr.Idx) :
    (dot_S256x1024_S1024x4096_S256x4096_1_0_0_1_n_n.rhsIdx i q (0 : Fin 2)).val = (q ⟨0, by decide⟩).val :=
  dot_S256x1024_S1024x4096_S256x4096_1_0_0_1_n_n.rhsIdx_val_of_single rfl i q

theorem scores_r1 (i : S256x4096.Idx) (q : dot_S256x1024_S1024x4096_S256x4096_1_0_0_1_n_n.contr.Idx) :
    (dot_S256x1024_S1024x4096_S256x4096_1_0_0_1_n_n.rhsIdx i q (1 : Fin 2)).val = (i (1 : Fin 2)).val := by
  unfold DotDims.rhsIdx
  rw [dif_neg (show ¬(1 : Fin S1024x4096.rank) ∈ dot_S256x1024_S1024x4096_S256x4096_1_0_0_1_n_n.rhsBatch by decide),
    dif_pos (show (1 : Fin S1024x4096.rank) ∈ dot_S256x1024_S1024x4096_S256x4096_1_0_0_1_n_n.rhsNonContracting by decide)]
  rfl

theorem mix_l0 (i : S256x1024.Idx) (q : dot_S256x4096_S4096x1024_S256x1024_1_0_0_1_n_n.contr.Idx) :
    (dot_S256x4096_S4096x1024_S256x1024_1_0_0_1_n_n.lhsIdx i q (0 : Fin 2)).val = (i (0 : Fin 2)).val := by
  unfold DotDims.lhsIdx
  rw [dif_neg (show ¬(0 : Fin S256x4096.rank) ∈ dot_S256x4096_S4096x1024_S256x1024_1_0_0_1_n_n.lhsBatch by decide),
    dif_pos (show (0 : Fin S256x4096.rank) ∈ dot_S256x4096_S4096x1024_S256x1024_1_0_0_1_n_n.lhsNonContracting by decide)]
  rfl

theorem mix_l1 (i : S256x1024.Idx) (q : dot_S256x4096_S4096x1024_S256x1024_1_0_0_1_n_n.contr.Idx) :
    (dot_S256x4096_S4096x1024_S256x1024_1_0_0_1_n_n.lhsIdx i q (1 : Fin 2)).val = (q ⟨0, by decide⟩).val :=
  dot_S256x4096_S4096x1024_S256x1024_1_0_0_1_n_n.lhsIdx_val_of_single rfl i q

theorem mix_r0 (i : S256x1024.Idx) (q : dot_S256x4096_S4096x1024_S256x1024_1_0_0_1_n_n.contr.Idx) :
    (dot_S256x4096_S4096x1024_S256x1024_1_0_0_1_n_n.rhsIdx i q (0 : Fin 2)).val = (q ⟨0, by decide⟩).val :=
  dot_S256x4096_S4096x1024_S256x1024_1_0_0_1_n_n.rhsIdx_val_of_single rfl i q

theorem mix_r1 (i : S256x1024.Idx) (q : dot_S256x4096_S4096x1024_S256x1024_1_0_0_1_n_n.contr.Idx) :
    (dot_S256x4096_S4096x1024_S256x1024_1_0_0_1_n_n.rhsIdx i q (1 : Fin 2)).val = (i (1 : Fin 2)).val := by
  unfold DotDims.rhsIdx
  rw [dif_neg (show ¬(1 : Fin S4096x1024.rank) ∈ dot_S256x4096_S4096x1024_S256x1024_1_0_0_1_n_n.rhsBatch by decide),
    dif_pos (show (1 : Fin S4096x1024.rank) ∈ dot_S256x4096_S4096x1024_S256x1024_1_0_0_1_n_n.rhsNonContracting by decide)]
  rfl

/-! ## The three affine layers -/

/-- The block's rows against a weight matrix, at `(p, q)`: the narrowing of the rows is the identity. -/
theorem layer_product (x : FVec Ideal S512x1024 .f32) (w : FVec Ideal S1024x1024 .bf16) (p : Fin 512) (q : Fin 1024) :
    matmul dot_S512x1024_S1024x1024_S512x1024_1_0_0_1_n_n none (k0_pay1 (F := Ideal) x)
        (shapeCast S1024x1024 w shapeCasts_S1024x1024_S1024x1024) (constant (F := Ideal) S512x1024 .f32 0x00000000#32) (ix2 p q)
      = ∑ d : Fin 1024, x (ix2 p d) * w (ix2 d q) := by
  rw [shapeCast_self]
  exact Idealize.ShloMosaic.MatmulAt.matmul_zero_ix2 dot_S512x1024_S1024x1024_S512x1024_1_0_0_1_n_n rfl rfl
    layer_l0 layer_l1 layer_r0 layer_r1 none (k0_pay1 (F := Ideal) x) w p q

/-- The bias, cast to one row and broadcast over the block's 512 rows, at `(p, q)`: the bias at `q`. -/
theorem bias_row (b : FVec Ideal S1024 .f32) (p : Fin 512) (q : Fin 1024) :
    broadcastTo S512x1024 (shapeCast S1x1024 b shapeCasts_S1024_S1x1024) broadcasts_S1x1024_S512x1024 (ix2 p q) = b (ix1 q) :=
  (broadcastTo_1b_ab_apply _ broadcasts_S1x1024_S512x1024 p q).trans
    (shapeCast_a_1a_apply b shapeCasts_S1024_S1x1024 (0 : Fin 1) q)

end Payload

open Payload

/-- The first layer's stored value: the affine layer times 2^-5. -/
theorem scaled_layer_block (x : FVec Ideal S512x1024 .f32) (w : FVec Ideal S1024x1024 .bf16) (b : FVec Ideal S1024 .f32)
    (p : Fin 512) (q : Fin 1024) :
    k0_pay2 (F := Ideal) x w b (ix2 p q)
      = ((∑ d : Fin 1024, x (ix2 p d) * w (ix2 d q)) + b (ix1 q)) * Ideal.ofBits .f32 0x3D000000#32 := by
  unfold k0_pay2
  exact congrArg (· * Ideal.ofBits .f32 0x3D000000#32)
    (congrArg₂ (· + ·) (layer_product x w p q) (bias_row b p q))

/-- The second layer's stored value: the affine layer. -/
theorem layer_block3 (x : FVec Ideal S512x1024 .f32) (w : FVec Ideal S1024x1024 .bf16) (b : FVec Ideal S1024 .f32)
    (p : Fin 512) (q : Fin 1024) :
    k0_pay3 (F := Ideal) x w b (ix2 p q) = (∑ d : Fin 1024, x (ix2 p d) * w (ix2 d q)) + b (ix1 q) := by
  unfold k0_pay3
  exact congrArg₂ (· + ·) (layer_product x w p q) (bias_row b p q)

/-- The third layer's stored value: the affine layer. -/
theorem layer_block4 (x : FVec Ideal S512x1024 .f32) (w : FVec Ideal S1024x1024 .bf16) (b : FVec Ideal S1024 .f32)
    (p : Fin 512) (q : Fin 1024) :
    k0_pay4 (F := Ideal) x w b (ix2 p q) = (∑ d : Fin 1024, x (ix2 p d) * w (ix2 d q)) + b (ix1 q) := by
  unfold k0_pay4
  exact congrArg₂ (· + ·) (layer_product x w p q) (bias_row b p q)

/-! ## The attention block -/

namespace Payload

/-- The word of `-∞` denotes the least extended real. -/
private theorem ofBits_neg_inf : Ideal.ofBits .f32 0xFF800000#32 = (⊥ : EReal) := by
  simp [Ideal.ofBits, Ideal.ieee]

/-- The block's scores: the query rows against the transposed keys. -/
def blockScores (qb : FVec Ideal S256x1024 .bf16) (kk : FVec Ideal S4096x1024 .bf16) : FVec Ideal S256x4096 .f32 :=
  matmul (F := Ideal) dot_S256x1024_S1024x4096_S256x4096_1_0_0_1_n_n none (shapeCast S256x1024 qb shapeCasts_S256x1024_S256x1024)
    (transpose S1024x4096 [1, 0] (shapeCast S4096x1024 kk shapeCasts_S4096x1024_S4096x1024) transposes_S4096x1024_p1_0_S1024x4096)
    (constant (F := Ideal) S256x4096 .f32 0x00000000#32)

/-- A score at `(p, k)`: query row `p` against key row `k` (the transposed keys at `(d, k)` are the keys at `(k, d)`). -/
theorem blockScores_apply (qb : FVec Ideal S256x1024 .bf16) (kk : FVec Ideal S4096x1024 .bf16) (p : Fin 256) (k : Fin 4096) :
    blockScores qb kk (ix2 p k) = ∑ d : Fin 1024, qb (ix2 p d) * kk (ix2 k d) := by
  unfold blockScores
  rw [shapeCast_self, shapeCast_self]
  refine (Idealize.ShloMosaic.MatmulAt.matmul_zero_ix2 dot_S256x1024_S1024x4096_S256x4096_1_0_0_1_n_n rfl rfl
    scores_l0 scores_l1 scores_r0 scores_r1 none qb _ p k).trans ?_
  exact Finset.sum_congr rfl fun d _ => congrArg (qb (ix2 p d) * ·)
    (transpose_ix2_apply kk transposes_S4096x1024_p1_0_S1024x4096 d k)

/-- A row's maximum, cast to a column and broadcast over the 4096 columns, at `(p, k)`: the fold of `max` from `-∞`
    over row `p`. -/
theorem rowMax_spread (s : FVec Ideal S256x4096 .f32) (p : Fin 256) (k : Fin 4096) :
    broadcastTo S256x4096
        (shapeCast S256x1 (multiReduction (F := Ideal) .maximumf [1] S256 s 0xFF800000#32 reduces_S256x4096_S256 (.inl rfl) rfl)
          shapeCasts_S256_S256x1) broadcasts_S256x1_S256x4096 (ix2 p k)
      = Finset.univ.fold max ⊥ (fun k' : Fin 4096 => s (ix2 p k')) := by
  refine (Cert.LibColBroadcast.broadcastTo_a1_ab_apply _ broadcasts_S256x1_S256x4096 p k).trans ?_
  refine (Cert.LibColumnCast.shapeCast_a_a1_apply _ shapeCasts_S256_S256x1 p (0 : Fin 1)).trans ?_
  refine (Cert.LibRowMax.laneMax_row s reduces_S256x4096_S256 (.inl rfl) rfl p).trans ?_
  rw [ofBits_neg_inf]

/-- A row's sum, cast to a column and broadcast over the 1024 columns, at `(p, j)`: the sum of row `p`. -/
theorem rowSum_spread (e : FVec Ideal S256x4096 .f32) (p : Fin 256) (j : Fin 1024) :
    broadcastTo S256x1024
        (shapeCast S256x1 (multiReduction (F := Ideal) .add [1] S256 e 0x00000000#32 reduces_S256x4096_S256 (.inl rfl) rfl)
          shapeCasts_S256_S256x1) broadcasts_S256x1_S256x1024 (ix2 p j)
      = ∑ k : Fin 4096, e (ix2 p k) := by
  refine (Cert.LibColBroadcast.broadcastTo_a1_ab_apply _ broadcasts_S256x1_S256x1024 p j).trans ?_
  refine (Cert.LibColumnCast.shapeCast_a_a1_apply _ shapeCasts_S256_S256x1 p (0 : Fin 1)).trans ?_
  exact Cert.LibRowSum.laneSum_row e reduces_S256x4096_S256 (.inl rfl) rfl p

/-- The weights (narrowed, which is the identity) against the values, at `(p, j)`. -/
theorem mix_apply (e : FVec Ideal S256x4096 .f32) (vv : FVec Ideal S4096x1024 .bf16) (p : Fin 256) (j : Fin 1024) :
    matmul (F := Ideal) dot_S256x4096_S4096x1024_S256x1024_1_0_0_1_n_n none (truncf .bf16 e bitsLt_bf16_f32)
        (shapeCast S4096x1024 vv shapeCasts_S4096x1024_S4096x1024) (constant (F := Ideal) S256x1024 .f32 0x00000000#32) (ix2 p j)
      = ∑ k : Fin 4096, e (ix2 p k) * vv (ix2 k j) := by
  rw [shapeCast_self]
  exact Idealize.ShloMosaic.MatmulAt.matmul_zero_ix2 dot_S256x4096_S4096x1024_S256x1024_1_0_0_1_n_n rfl rfl
    mix_l0 mix_l1 mix_r0 mix_r1 none (truncf .bf16 e bitsLt_bf16_f32) vv p j

/-- The block's weights: `exp (score - row maximum)`. -/
def blockWeights (qb : FVec Ideal S256x1024 .bf16) (kk : FVec Ideal S4096x1024 .bf16) : FVec Ideal S256x4096 .f32 :=
  exp (F := Ideal) (subf (blockScores qb kk)
    (broadcastTo S256x4096
      (shapeCast S256x1 (multiReduction (F := Ideal) .maximumf [1] S256 (blockScores qb kk) 0xFF800000#32 reduces_S256x4096_S256 (.inl rfl) rfl)
        shapeCasts_S256_S256x1) broadcasts_S256x1_S256x4096))

/-- A weight at `(p, k)`. -/
theorem blockWeights_apply (qb : FVec Ideal S256x1024 .bf16) (kk : FVec Ideal S4096x1024 .bf16) (p : Fin 256) (k : Fin 4096) :
    blockWeights qb kk (ix2 p k)
      = Ideal.exp ((∑ d : Fin 1024, qb (ix2 p d) * kk (ix2 k d))
          - Finset.univ.fold max ⊥ (fun k' : Fin 4096 => ∑ d : Fin 1024, qb (ix2 p d) * kk (ix2 k' d))) := by
  unfold blockWeights
  refine congrArg Ideal.exp (congrArg₂ (· - ·) (blockScores_apply qb kk p k) ?_)
  refine (rowMax_spread (blockScores qb kk) p k).trans ?_
  exact congrArg (fun f => Finset.univ.fold max ⊥ f) (funext fun k' => blockScores_apply qb kk p k')

end Payload

/-- The attention block's stored value at `(p, j)`: the weighted mix of the values divided by the sum of the weights. -/
theorem attention_block (qb : FVec Ideal S256x1024 .bf16) (kk vv : FVec Ideal S4096x1024 .bf16) (p : Fin 256) (j : Fin 1024) :
    k1_pay1 (F := Ideal) qb kk vv (ix2 p j)
      = Ideal.div
          (∑ k : Fin 4096, Ideal.exp ((∑ d : Fin 1024, qb (ix2 p d) * kk (ix2 k d))
              - Finset.univ.fold max ⊥ (fun k' : Fin 4096 => ∑ d : Fin 1024, qb (ix2 p d) * kk (ix2 k' d))) * vv (ix2 k j))
          (∑ k : Fin 4096, Ideal.exp ((∑ d : Fin 1024, qb (ix2 p d) * kk (ix2 k d))
              - Finset.univ.fold max ⊥ (fun k' : Fin 4096 => ∑ d : Fin 1024, qb (ix2 p d) * kk (ix2 k' d)))) := by
  have hpay : k1_pay1 (F := Ideal) qb kk vv
      = divf (matmul (F := Ideal) dot_S256x4096_S4096x1024_S256x1024_1_0_0_1_n_n none (truncf .bf16 (blockWeights qb kk) bitsLt_bf16_f32)
            (shapeCast S4096x1024 vv shapeCasts_S4096x1024_S4096x1024) (constant (F := Ideal) S256x1024 .f32 0x00000000#32))
          (broadcastTo S256x1024
            (shapeCast S256x1 (multiReduction (F := Ideal) .add [1] S256 (blockWeights qb kk) 0x00000000#32 reduces_S256x4096_S256 (.inl rfl) rfl)
              shapeCasts_S256_S256x1) broadcasts_S256x1_S256x1024) := rfl
  rw [hpay]
  refine congrArg₂ Ideal.div ((mix_apply (blockWeights qb kk) vv p j).trans ?_)
    ((rowSum_spread (blockWeights qb kk) p j).trans ?_)
  · exact Finset.sum_congr rfl fun k _ => congrArg (· * vv (ix2 k j)) (blockWeights_apply qb kk p k)
  · exact Finset.sum_congr rfl fun k _ => blockWeights_apply qb kk p k

end Cert.SelfAttn

end
-- ==== Proof.Spec.lean ====
/-
  Single-head self-attention over 4096 tokens of 1024 features, as extended reals, in the two arrangements the
  programs compute it in.

  Three affine layers give the queries, keys and values: `lin X W b i j = (∑ d, X i d * W d j) + b j`.
  A score is a query row against a key row, scaled by a constant `c`; the scale is applied either to the query
  before the product (`scoresScaledQuery`) or to the product (`scoresThenScale`). A row of scores becomes softmax
  weights `exp (s i k - max over the row)`, whose sum is the row's normaliser. The values are mixed with those
  weights, and the normaliser divides either the mixed sum (`mixThenDivide`) or each weight before mixing
  (`divideThenMix`). The two arrangements agree when every entry is a real number (Proof/Algebra.lean).
-/
import Idealize.ShloMosaic.PureOps.Ideal
import Idealize.ShloMosaic.Lib.ValueIdx

noncomputable section

namespace Cert.SelfAttn

open Idealize.ShloMosaic Idealize.ShloMosaic.ValueIdx

/-- A matrix read by its two coordinates. -/
abbrev grid2 {a b : Nat} (A : FVec Ideal (⟨2, ![a, b]⟩ : Shape) .f32) : Fin a → Fin b → EReal := fun i d => A (ix2 i d)

/-- A vector read by its coordinate. -/
abbrev grid1 {a : Nat} (v : FVec Ideal (⟨1, ![a]⟩ : Shape) .f32) : Fin a → EReal := fun j => v (ix1 j)

/-- An affine layer at token `i` and output feature `j`: the token's row against the weight's column, plus the bias. -/
def lin (X : Fin 4096 → Fin 1024 → EReal) (W : Fin 1024 → Fin 1024 → EReal) (b : Fin 1024 → EReal)
    (i : Fin 4096) (j : Fin 1024) : EReal :=
  (∑ d : Fin 1024, X i d * W d j) + b j

/-- Scores with the scale folded into the query: `∑ d, (Q i d * c) * K k d`. -/
def scoresScaledQuery (Q K : Fin 4096 → Fin 1024 → EReal) (c : EReal) (i k : Fin 4096) : EReal :=
  ∑ d : Fin 1024, (Q i d * c) * K k d

/-- Scores scaled after the product: `(∑ d, Q i d * K k d) * c`. -/
def scoresThenScale (Q K : Fin 4096 → Fin 1024 → EReal) (c : EReal) (i k : Fin 4096) : EReal :=
  (∑ d : Fin 1024, Q i d * K k d) * c

/-- The largest score of row `i`, started from -∞. -/
def rowMax (s : Fin 4096 → Fin 4096 → EReal) (i : Fin 4096) : EReal :=
  Finset.univ.fold max ⊥ (fun k : Fin 4096 => s i k)

/-- The unnormalised softmax weight of key `k` for query `i`. -/
def weight (s : Fin 4096 → Fin 4096 → EReal) (i k : Fin 4096) : EReal :=
  Ideal.exp (s i k - rowMax s i)

/-- Row `i`'s normaliser: the sum of its weights. -/
def normaliser (s : Fin 4096 → Fin 4096 → EReal) (i : Fin 4096) : EReal :=
  ∑ k : Fin 4096, weight s i k

/-- Mix the values with the unnormalised weights, then divide by the normaliser. -/
def mixThenDivide (s : Fin 4096 → Fin 4096 → EReal) (V : Fin 4096 → Fin 1024 → EReal) (i : Fin 4096) (j : Fin 1024) : EReal :=
  Ideal.div (∑ k : Fin 4096, weight s i k * V k j) (normaliser s i)

/-- Divide each weight by the normaliser, then mix the values. -/
def divideThenMix (s : Fin 4096 → Fin 4096 → EReal) (V : Fin 4096 → Fin 1024 → EReal) (i : Fin 4096) (j : Fin 1024) : EReal :=
  ∑ k : Fin 4096, Ideal.div (weight s i k) (normaliser s i) * V k j

/-- The whole result with the scale on the query and the division after mixing. -/
def attnScaledQuery (X : FVec Ideal (⟨2, ![4096, 1024]⟩ : Shape) .f32)
    (Wq : FVec Ideal (⟨2, ![1024, 1024]⟩ : Shape) .f32) (bq : FVec Ideal (⟨1, ![1024]⟩ : Shape) .f32)
    (Wk : FVec Ideal (⟨2, ![1024, 1024]⟩ : Shape) .f32) (bk : FVec Ideal (⟨1, ![1024]⟩ : Shape) .f32)
    (Wv : FVec Ideal (⟨2, ![1024, 1024]⟩ : Shape) .f32) (bv : FVec Ideal (⟨1, ![1024]⟩ : Shape) .f32)
    (c : EReal) : FVec Ideal (⟨2, ![4096, 1024]⟩ : Shape) .f32 := fun idx =>
  mixThenDivide (scoresScaledQuery (lin (grid2 X) (grid2 Wq) (grid1 bq)) (lin (grid2 X) (grid2 Wk) (grid1 bk)) c)
    (lin (grid2 X) (grid2 Wv) (grid1 bv)) (idx 0) (idx 1)

/-- The whole result with the scale on the scores and each weight divided before mixing. -/
def attnScaledScores (X : FVec Ideal (⟨2, ![4096, 1024]⟩ : Shape) .f32)
    (Wq : FVec Ideal (⟨2, ![1024, 1024]⟩ : Shape) .f32) (bq : FVec Ideal (⟨1, ![1024]⟩ : Shape) .f32)
    (Wk : FVec Ideal (⟨2, ![1024, 1024]⟩ : Shape) .f32) (bk : FVec Ideal (⟨1, ![1024]⟩ : Shape) .f32)
    (Wv : FVec Ideal (⟨2, ![1024, 1024]⟩ : Shape) .f32) (bv : FVec Ideal (⟨1, ![1024]⟩ : Shape) .f32)
    (c : EReal) : FVec Ideal (⟨2, ![4096, 1024]⟩ : Shape) .f32 := fun idx =>
  divideThenMix (scoresThenScale (lin (grid2 X) (grid2 Wq) (grid1 bq)) (lin (grid2 X) (grid2 Wk) (grid1 bk)) c)
    (lin (grid2 X) (grid2 Wv) (grid1 bv)) (idx 0) (idx 1)

theorem attnScaledQuery_ix2 (X Wq bq Wk bk Wv bv) (c : EReal) (i : Fin 4096) (j : Fin 1024) :
    attnScaledQuery X Wq bq Wk bk Wv bv c (ix2 i j)
      = mixThenDivide (scoresScaledQuery (lin (grid2 X) (grid2 Wq) (grid1 bq)) (lin (grid2 X) (grid2 Wk) (grid1 bk)) c)
          (lin (grid2 X) (grid2 Wv) (grid1 bv)) i j := rfl

theorem attnScaledScores_ix2 (X Wq bq Wk bk Wv bv) (c : EReal) (i : Fin 4096) (j : Fin 1024) :
    attnScaledScores X Wq bq Wk bk Wv bv c (ix2 i j)
      = divideThenMix (scoresThenScale (lin (grid2 X) (grid2 Wq) (grid1 bq)) (lin (grid2 X) (grid2 Wk) (grid1 bk)) c)
          (lin (grid2 X) (grid2 Wv) (grid1 bv)) i j := rfl

/-- Every entry of an array is a real number. -/
def AllReal {s : Shape} (A : FVec Ideal s .f32) : Prop := ∀ i, ∃ r : ℝ, A i = (r : EReal)

end Cert.SelfAttn

end
-- ==== Proof.Region0.lean ====
/-
  The first region: three affine layers, one row block of 512 tokens per grid point.

  The grid has 8 points. At point `t` the token window holds rows `512 t … 512 t + 511` of the token array; each
  weight window and each bias window holds its whole array at every point. The body multiplies the token block by each
  weight matrix, adds the bias along the rows, scales the first result by a constant, and stores the three results
  through three output windows, whose block at point `t` is rows `512 t … 512 t + 511` again. So entry `(r, j)` of
  each output array, written by point `r / 512`, is the affine layer of the whole token array at `(r, j)`: the
  contraction runs along a token's row, which the block holds whole.
-/
import proofs.«120721_j30837865185734_2_alg».proof.Proof.Gen.KernelIdeal.Frame
import proofs.«120721_j30837865185734_2_alg».proof.Proof.Payload
import proofs.«120721_j30837865185734_2_alg».proof.Proof.Spec
import Idealize.ShloMosaic.Lib.Pipeline.Value
import Idealize.ShloMosaic.Lib.ValueIdx

set_option maxRecDepth 16384

noncomputable section

namespace Cert.SelfAttn.Region0

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.SelfAttn

/-- An affine layer of whole arrays, as an array. -/
def layer (X : S4096x1024.Idx → EReal) (W : S1024x1024.Idx → EReal) (b : S1024.Idx → EReal) : S4096x1024.Idx → EReal :=
  fun i => lin (grid2 X) (grid2 W) (grid1 b) (i 0) (i 1)

/-- An affine layer of whole arrays with every entry scaled by `s`. -/
def scaledLayer (X : S4096x1024.Idx → EReal) (W : S1024x1024.Idx → EReal) (b : S1024.Idx → EReal) (s : EReal) : S4096x1024.Idx → EReal :=
  fun i => lin (grid2 X) (grid2 W) (grid1 b) (i 0) (i 1) * s

theorem hz2 : (![0, 0] : Fin 2 → Nat) = fun _ => 0 := funext fun a => by fin_cases a <;> rfl
theorem hz1 : (![0] : Fin 1 → Nat) = fun _ => 0 := funext fun a => by fin_cases a; rfl

/-- The token window and the three output windows sit on row block `t` at point `t`, column block 0. -/
theorem idx_rows : ∀ t : Fin cfg0.N, win0_0.index t (0 : Fin 2) = t.val ∧ win0_0.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-- The weight and bias windows sit on block 0 at every point. -/
theorem idx_whole : ∀ t : Fin cfg0.N, win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0 :=
  (by decide +kernel : ∀ t : Fin grid0.N, _)

variable (V : (c : Dev nD) → (b : Ref sig .tc) → Buf (Elt Ideal) ((c : Thread nD τ).loc b))

/-- The token window at point `t` holds rows `512 t + p` of the token array. -/
theorem tokens_block (c : Dev nD) (t : Fin cfg0.N) (p : Fin 512) (d : Fin 1024) (hr : t.val * 512 + p.val < 4096) :
    iblk0 V c 0 t (ix2 p d) = (V c main_arg0 : S4096x1024.Idx → EReal) (ix2 ⟨t.val * 512 + p.val, hr⟩ d) := by
  obtain ⟨e0, e1, -⟩ := idx_rows t
  show (V c main_arg0 : S4096x1024.Idx → EReal) (((cfg0.win 0).blk t).view.emb (ix2 p d)) = _
  congr 1
  funext a; apply Fin.ext
  match a with
  | ⟨0, _⟩ => show win0_0.index t (0 : Fin 2) * 512 + 1 * p.val = t.val * 512 + p.val; rw [e0]; omega
  | ⟨1, _⟩ => show win0_0.index t (1 : Fin 2) * 1024 + 1 * d.val = d.val; rw [e1]; omega

/-- The weight window of output 7 holds the whole weight matrix at every point. -/
theorem weights_block7 (c : Dev nD) (t : Fin cfg0.N) (d q : Fin 1024) :
    iblk0 V c 1 t (ix2 d q) = (V c main_v0 : S1024x1024.Idx → EReal) (ix2 d q) := by
  obtain ⟨e10, e11, e2, e30, e31, e4, e50, e51, e6⟩ := idx_whole t
  show (V c main_v0 : S1024x1024.Idx → EReal) (((cfg0.win 1).blk t).view.emb (ix2 d q)) = _
  congr 1
  funext a; apply Fin.ext
  match a with
  | ⟨0, _⟩ => show win0_1.index t (0 : Fin 2) * 1024 + 1 * d.val = d.val; rw [e10]; omega
  | ⟨1, _⟩ => show win0_1.index t (1 : Fin 2) * 1024 + 1 * q.val = q.val; rw [e11]; omega

/-- The bias window of output 7 holds the whole bias vector at every point. -/
theorem bias_block7 (c : Dev nD) (t : Fin cfg0.N) (q : Fin 1024) :
    iblk0 V c 2 t (ix1 q) = (V c main_arg2 : S1024.Idx → EReal) (ix1 q) := by
  obtain ⟨e10, e11, e2, e30, e31, e4, e50, e51, e6⟩ := idx_whole t
  show (V c main_arg2 : S1024.Idx → EReal) (((cfg0.win 2).blk t).view.emb (ix1 q)) = _
  congr 1
  funext a; apply Fin.ext
  match a with
  | ⟨0, _⟩ => show win0_2.index t (0 : Fin 1) * 1024 + 1 * q.val = q.val; rw [e2]; omega

/-- The weight window of output 8 holds the whole weight matrix at every point. -/
theorem weights_block8 (c : Dev nD) (t : Fin cfg0.N) (d q : Fin 1024) :
    iblk0 V c 3 t (ix2 d q) = (V c main_v1 : S1024x1024.Idx → EReal) (ix2 d q) := by
  obtain ⟨e10, e11, e2, e30, e31, e4, e50, e51, e6⟩ := idx_whole t
  show (V c main_v1 : S1024x1024.Idx → EReal) (((cfg0.win 3).blk t).view.emb (ix2 d q)) = _
  congr 1
  funext a; apply Fin.ext
  match a with
  | ⟨0, _⟩ => show win0_3.index t (0 : Fin 2) * 1024 + 1 * d.val = d.val; rw [e30]; omega
  | ⟨1, _⟩ => show win0_3.index t (1 : Fin 2) * 1024 + 1 * q.val = q.val; rw [e31]; omega

/-- The bias window of output 8 holds the whole bias vector at every point. -/
theorem bias_block8 (c : Dev nD) (t : Fin cfg0.N) (q : Fin 1024) :
    iblk0 V c 4 t (ix1 q) = (V c main_arg4 : S1024.Idx → EReal) (ix1 q) := by
  obtain ⟨e10, e11, e2, e30, e31, e4, e50, e51, e6⟩ := idx_whole t
  show (V c main_arg4 : S1024.Idx → EReal) (((cfg0.win 4).blk t).view.emb (ix1 q)) = _
  congr 1
  funext a; apply Fin.ext
  match a with
  | ⟨0, _⟩ => show win0_4.index t (0 : Fin 1) * 1024 + 1 * q.val = q.val; rw [e4]; omega

/-- The weight window of output 9 holds the whole weight matrix at every point. -/
theorem weights_block9 (c : Dev nD) (t : Fin cfg0.N) (d q : Fin 1024) :
    iblk0 V c 5 t (ix2 d q) = (V c main_v2 : S1024x1024.Idx → EReal) (ix2 d q) := by
  obtain ⟨e10, e11, e2, e30, e31, e4, e50, e51, e6⟩ := idx_whole t
  show (V c main_v2 : S1024x1024.Idx → EReal) (((cfg0.win 5).blk t).view.emb (ix2 d q)) = _
  congr 1
  funext a; apply Fin.ext
  match a with
  | ⟨0, _⟩ => show win0_5.index t (0 : Fin 2) * 1024 + 1 * d.val = d.val; rw [e50]; omega
  | ⟨1, _⟩ => show win0_5.index t (1 : Fin 2) * 1024 + 1 * q.val = q.val; rw [e51]; omega

/-- The bias window of output 9 holds the whole bias vector at every point. -/
theorem bias_block9 (c : Dev nD) (t : Fin cfg0.N) (q : Fin 1024) :
    iblk0 V c 6 t (ix1 q) = (V c main_arg6 : S1024.Idx → EReal) (ix1 q) := by
  obtain ⟨e10, e11, e2, e30, e31, e4, e50, e51, e6⟩ := idx_whole t
  show (V c main_arg6 : S1024.Idx → EReal) (((cfg0.win 6).blk t).view.emb (ix1 q)) = _
  congr 1
  funext a; apply Fin.ext
  match a with
  | ⟨0, _⟩ => show win0_6.index t (0 : Fin 1) * 1024 + 1 * q.val = q.val; rw [e6]; omega

/-- An index of the array is in point `t`'s block of window 7 iff each coordinate is in the block's range. -/
theorem mem_blk7 (t : Fin cfg0.N) (i : S4096x1024.Idx) :
    i ∈ ((cfg0.win 7).blk t).view.set ↔ ∀ a : Fin 2, win0_7.index t a * S512x1024.size a ≤ (i a).val ∧ (i a).val < win0_7.index t a * S512x1024.size a + S512x1024.size a := by
  show i ∈ ((View.whole main_v3_0).slice (win0_7.rect t)).set ↔ _
  rw [View.set_slice_whole, Rect.mem_set_unit]
  exact Iff.rfl

/-- Every row of the array lies in the block of the point `row / 512`. -/
theorem cover7 (i : S4096x1024.Idx) : ∃ t : Fin cfg0.N, (cfg0.win 7).flush t = true ∧ i ∈ ((cfg0.win 7).blk t).view.set := by
  have hN : cfg0.N = 8 := N_0
  have hi0 : (i 0).val < 4096 := (i 0).isLt
  have hi1 : (i 1).val < 1024 := (i 1).isLt
  have ht : (i 0).val / 512 < cfg0.N := by rw [hN]; omega
  obtain ⟨-, -, e70, e71, e80, e81, e90, e91⟩ := idx_rows ⟨(i 0).val / 512, ht⟩
  refine ⟨⟨(i 0).val / 512, ht⟩, flush0_7 _, ?_⟩
  rw [mem_blk7]
  intro a
  match a with
  | ⟨0, _⟩ =>
    show win0_7.index ⟨(i 0).val / 512, ht⟩ (0 : Fin 2) * 512 ≤ (i 0).val ∧ (i 0).val < win0_7.index ⟨(i 0).val / 512, ht⟩ (0 : Fin 2) * 512 + 512
    rw [e70]
    show (i 0).val / 512 * 512 ≤ (i 0).val ∧ (i 0).val < (i 0).val / 512 * 512 + 512
    omega
  | ⟨1, _⟩ =>
    show win0_7.index ⟨(i 0).val / 512, ht⟩ (1 : Fin 2) * 1024 ≤ (i 1).val ∧ (i 1).val < win0_7.index ⟨(i 0).val / 512, ht⟩ (1 : Fin 2) * 1024 + 1024
    rw [e71]
    omega

/-- What point `t` writes back through window 7 is block `t` of the scaled query layer of the arrays the region found. -/
theorem flushed7 (c : Dev nD) (t : Fin cfg0.N) :
    (dat0 V c).flushed 7 t = ((cfg0.win 7).blk t).view.read (Elt Ideal)
      (scaledLayer (V c main_arg0) (V c main_v0) (V c main_arg2) (Ideal.ofBits .f32 0x3D000000#32)) := by
  show (cfg0.win 7).cut (grid0.coords t) ((dat0 V c).after 7 t) = _
  rw [after0_7]
  unfold out0_7
  rw [View.canon_unit_zero hz2]
  simp only [View.ld_unit_zero (S := S512x1024) hz2, View.ld_unit_zero (S := S1024x1024) hz2, View.ld_unit_zero (S := S1024) hz1]
  funext j
  obtain ⟨p, q, rfl⟩ : ∃ (p : Fin 512) (q : Fin 1024), j = ix2 p q := ⟨j 0, j 1, eq_ix2 j⟩
  have hN : cfg0.N = 8 := N_0
  have hr : t.val * 512 + p.val < 4096 := by have := t.isLt; have := p.isLt; omega
  obtain ⟨-, -, e70, e71, e80, e81, e90, e91⟩ := idx_rows t
  have eo : ((cfg0.win 7).blk t).view.emb (ix2 p q) = (ix2 ⟨t.val * 512 + p.val, hr⟩ q : S4096x1024.Idx) := by
    funext a; apply Fin.ext
    match a with
    | ⟨0, _⟩ => show win0_7.index t (0 : Fin 2) * 512 + 1 * p.val = t.val * 512 + p.val; rw [e70]; omega
    | ⟨1, _⟩ => show win0_7.index t (1 : Fin 2) * 1024 + 1 * q.val = q.val; rw [e71]; omega
  refine (scaled_layer_block (iblk0 V c 0 t) (iblk0 V c 1 t) (iblk0 V c 2 t) p q).trans ?_
  show _ = scaledLayer (V c main_arg0) (V c main_v0) (V c main_arg2) (Ideal.ofBits .f32 0x3D000000#32) (((cfg0.win 7).blk t).view.emb (ix2 p q))
  rw [eo]
  have hx : ∀ d : Fin 1024, iblk0 V c 0 t (ix2 p d) = (V c main_arg0 : S4096x1024.Idx → EReal) (ix2 ⟨t.val * 512 + p.val, hr⟩ d) :=
    fun d => tokens_block V c t p d hr
  have hw : ∀ d : Fin 1024, iblk0 V c 1 t (ix2 d q) = (V c main_v0 : S1024x1024.Idx → EReal) (ix2 d q) :=
    fun d => weights_block7 V c t d q
  have hb : iblk0 V c 2 t (ix1 q) = (V c main_arg2 : S1024.Idx → EReal) (ix1 q) := bias_block7 V c t q
  simp only [hx, hw, hb]
  rfl

/-- After the region, the array behind window 7 holds the scaled query layer of the arrays the region found. -/
theorem queries (c : Dev nD) :
    (dat0 V c).arrAt 7 cfg0.N = scaledLayer (V c main_arg0) (V c main_v0) (V c main_arg2) (Ideal.ofBits .f32 0x3D000000#32) :=
  (dat0 V c).arrAt_eq_of_cover 7 _ (fun t _ => flushed7 V c t) cover7

/-- An index of the array is in point `t`'s block of window 8 iff each coordinate is in the block's range. -/
theorem mem_blk8 (t : Fin cfg0.N) (i : S4096x1024.Idx) :
    i ∈ ((cfg0.win 8).blk t).view.set ↔ ∀ a : Fin 2, win0_8.index t a * S512x1024.size a ≤ (i a).val ∧ (i a).val < win0_8.index t a * S512x1024.size a + S512x1024.size a := by
  show i ∈ ((View.whole main_v3_1).slice (win0_8.rect t)).set ↔ _
  rw [View.set_slice_whole, Rect.mem_set_unit]
  exact Iff.rfl

/-- Every row of the array lies in the block of the point `row / 512`. -/
theorem cover8 (i : S4096x1024.Idx) : ∃ t : Fin cfg0.N, (cfg0.win 8).flush t = true ∧ i ∈ ((cfg0.win 8).blk t).view.set := by
  have hN : cfg0.N = 8 := N_0
  have hi0 : (i 0).val < 4096 := (i 0).isLt
  have hi1 : (i 1).val < 1024 := (i 1).isLt
  have ht : (i 0).val / 512 < cfg0.N := by rw [hN]; omega
  obtain ⟨-, -, e70, e71, e80, e81, e90, e91⟩ := idx_rows ⟨(i 0).val / 512, ht⟩
  refine ⟨⟨(i 0).val / 512, ht⟩, flush0_8 _, ?_⟩
  rw [mem_blk8]
  intro a
  match a with
  | ⟨0, _⟩ =>
    show win0_8.index ⟨(i 0).val / 512, ht⟩ (0 : Fin 2) * 512 ≤ (i 0).val ∧ (i 0).val < win0_8.index ⟨(i 0).val / 512, ht⟩ (0 : Fin 2) * 512 + 512
    rw [e80]
    show (i 0).val / 512 * 512 ≤ (i 0).val ∧ (i 0).val < (i 0).val / 512 * 512 + 512
    omega
  | ⟨1, _⟩ =>
    show win0_8.index ⟨(i 0).val / 512, ht⟩ (1 : Fin 2) * 1024 ≤ (i 1).val ∧ (i 1).val < win0_8.index ⟨(i 0).val / 512, ht⟩ (1 : Fin 2) * 1024 + 1024
    rw [e81]
    omega

/-- What point `t` writes back through window 8 is block `t` of the key layer of the arrays the region found. -/
theorem flushed8 (c : Dev nD) (t : Fin cfg0.N) :
    (dat0 V c).flushed 8 t = ((cfg0.win 8).blk t).view.read (Elt Ideal)
      (layer (V c main_arg0) (V c main_v1) (V c main_arg4)) := by
  show (cfg0.win 8).cut (grid0.coords t) ((dat0 V c).after 8 t) = _
  rw [after0_8]
  unfold out0_8
  rw [View.canon_unit_zero hz2]
  simp only [View.ld_unit_zero (S := S512x1024) hz2, View.ld_unit_zero (S := S1024x1024) hz2, View.ld_unit_zero (S := S1024) hz1]
  funext j
  obtain ⟨p, q, rfl⟩ : ∃ (p : Fin 512) (q : Fin 1024), j = ix2 p q := ⟨j 0, j 1, eq_ix2 j⟩
  have hN : cfg0.N = 8 := N_0
  have hr : t.val * 512 + p.val < 4096 := by have := t.isLt; have := p.isLt; omega
  obtain ⟨-, -, e70, e71, e80, e81, e90, e91⟩ := idx_rows t
  have eo : ((cfg0.win 8).blk t).view.emb (ix2 p q) = (ix2 ⟨t.val * 512 + p.val, hr⟩ q : S4096x1024.Idx) := by
    funext a; apply Fin.ext
    match a with
    | ⟨0, _⟩ => show win0_8.index t (0 : Fin 2) * 512 + 1 * p.val = t.val * 512 + p.val; rw [e80]; omega
    | ⟨1, _⟩ => show win0_8.index t (1 : Fin 2) * 1024 + 1 * q.val = q.val; rw [e81]; omega
  refine (layer_block3 (iblk0 V c 0 t) (iblk0 V c 3 t) (iblk0 V c 4 t) p q).trans ?_
  show _ = layer (V c main_arg0) (V c main_v1) (V c main_arg4) (((cfg0.win 8).blk t).view.emb (ix2 p q))
  rw [eo]
  have hx : ∀ d : Fin 1024, iblk0 V c 0 t (ix2 p d) = (V c main_arg0 : S4096x1024.Idx → EReal) (ix2 ⟨t.val * 512 + p.val, hr⟩ d) :=
    fun d => tokens_block V c t p d hr
  have hw : ∀ d : Fin 1024, iblk0 V c 3 t (ix2 d q) = (V c main_v1 : S1024x1024.Idx → EReal) (ix2 d q) :=
    fun d => weights_block8 V c t d q
  have hb : iblk0 V c 4 t (ix1 q) = (V c main_arg4 : S1024.Idx → EReal) (ix1 q) := bias_block8 V c t q
  simp only [hx, hw, hb]
  rfl

/-- After the region, the array behind window 8 holds the key layer of the arrays the region found. -/
theorem keys (c : Dev nD) :
    (dat0 V c).arrAt 8 cfg0.N = layer (V c main_arg0) (V c main_v1) (V c main_arg4) :=
  (dat0 V c).arrAt_eq_of_cover 8 _ (fun t _ => flushed8 V c t) cover8

/-- An index of the array is in point `t`'s block of window 9 iff each coordinate is in the block's range. -/
theorem mem_blk9 (t : Fin cfg0.N) (i : S4096x1024.Idx) :
    i ∈ ((cfg0.win 9).blk t).view.set ↔ ∀ a : Fin 2, win0_9.index t a * S512x1024.size a ≤ (i a).val ∧ (i a).val < win0_9.index t a * S512x1024.size a + S512x1024.size a := by
  show i ∈ ((View.whole main_v3_2).slice (win0_9.rect t)).set ↔ _
  rw [View.set_slice_whole, Rect.mem_set_unit]
  exact Iff.rfl

/-- Every row of the array lies in the block of the point `row / 512`. -/
theorem cover9 (i : S4096x1024.Idx) : ∃ t : Fin cfg0.N, (cfg0.win 9).flush t = true ∧ i ∈ ((cfg0.win 9).blk t).view.set := by
  have hN : cfg0.N = 8 := N_0
  have hi0 : (i 0).val < 4096 := (i 0).isLt
  have hi1 : (i 1).val < 1024 := (i 1).isLt
  have ht : (i 0).val / 512 < cfg0.N := by rw [hN]; omega
  obtain ⟨-, -, e70, e71, e80, e81, e90, e91⟩ := idx_rows ⟨(i 0).val / 512, ht⟩
  refine ⟨⟨(i 0).val / 512, ht⟩, flush0_9 _, ?_⟩
  rw [mem_blk9]
  intro a
  match a with
  | ⟨0, _⟩ =>
    show win0_9.index ⟨(i 0).val / 512, ht⟩ (0 : Fin 2) * 512 ≤ (i 0).val ∧ (i 0).val < win0_9.index ⟨(i 0).val / 512, ht⟩ (0 : Fin 2) * 512 + 512
    rw [e90]
    show (i 0).val / 512 * 512 ≤ (i 0).val ∧ (i 0).val < (i 0).val / 512 * 512 + 512
    omega
  | ⟨1, _⟩ =>
    show win0_9.index ⟨(i 0).val / 512, ht⟩ (1 : Fin 2) * 1024 ≤ (i 1).val ∧ (i 1).val < win0_9.index ⟨(i 0).val / 512, ht⟩ (1 : Fin 2) * 1024 + 1024
    rw [e91]
    omega

/-- What point `t` writes back through window 9 is block `t` of the value layer of the arrays the region found. -/
theorem flushed9 (c : Dev nD) (t : Fin cfg0.N) :
    (dat0 V c).flushed 9 t = ((cfg0.win 9).blk t).view.read (Elt Ideal)
      (layer (V c main_arg0) (V c main_v2) (V c main_arg6)) := by
  show (cfg0.win 9).cut (grid0.coords t) ((dat0 V c).after 9 t) = _
  rw [after0_9]
  unfold out0_9
  rw [View.canon_unit_zero hz2]
  simp only [View.ld_unit_zero (S := S512x1024) hz2, View.ld_unit_zero (S := S1024x1024) hz2, View.ld_unit_zero (S := S1024) hz1]
  funext j
  obtain ⟨p, q, rfl⟩ : ∃ (p : Fin 512) (q : Fin 1024), j = ix2 p q := ⟨j 0, j 1, eq_ix2 j⟩
  have hN : cfg0.N = 8 := N_0
  have hr : t.val * 512 + p.val < 4096 := by have := t.isLt; have := p.isLt; omega
  obtain ⟨-, -, e70, e71, e80, e81, e90, e91⟩ := idx_rows t
  have eo : ((cfg0.win 9).blk t).view.emb (ix2 p q) = (ix2 ⟨t.val * 512 + p.val, hr⟩ q : S4096x1024.Idx) := by
    funext a; apply Fin.ext
    match a with
    | ⟨0, _⟩ => show win0_9.index t (0 : Fin 2) * 512 + 1 * p.val = t.val * 512 + p.val; rw [e90]; omega
    | ⟨1, _⟩ => show win0_9.index t (1 : Fin 2) * 1024 + 1 * q.val = q.val; rw [e91]; omega
  refine (layer_block4 (iblk0 V c 0 t) (iblk0 V c 5 t) (iblk0 V c 6 t) p q).trans ?_
  show _ = layer (V c main_arg0) (V c main_v2) (V c main_arg6) (((cfg0.win 9).blk t).view.emb (ix2 p q))
  rw [eo]
  have hx : ∀ d : Fin 1024, iblk0 V c 0 t (ix2 p d) = (V c main_arg0 : S4096x1024.Idx → EReal) (ix2 ⟨t.val * 512 + p.val, hr⟩ d) :=
    fun d => tokens_block V c t p d hr
  have hw : ∀ d : Fin 1024, iblk0 V c 5 t (ix2 d q) = (V c main_v2 : S1024x1024.Idx → EReal) (ix2 d q) :=
    fun d => weights_block9 V c t d q
  have hb : iblk0 V c 6 t (ix1 q) = (V c main_arg6 : S1024.Idx → EReal) (ix1 q) := bias_block9 V c t q
  simp only [hx, hw, hb]
  rfl

/-- After the region, the array behind window 9 holds the value layer of the arrays the region found. -/
theorem values (c : Dev nD) :
    (dat0 V c).arrAt 9 cfg0.N = layer (V c main_arg0) (V c main_v2) (V c main_arg6) :=
  (dat0 V c).arrAt_eq_of_cover 9 _ (fun t _ => flushed9 V c t) cover9

end Cert.SelfAttn.Region0

end
-- ==== Proof.Region1.lean ====
/-
  The second region: attention, one block of 256 query rows per grid point.

  The grid has 16 points. At point `t` the query window holds rows `256 t … 256 t + 255` of the (already scaled)
  query array; the key window and the value window hold their whole arrays at every point. For each query row of the
  block the body forms the scores against every key, takes the row's maximum, exponentiates the differences, sums
  them, mixes the values with the unnormalised weights and divides by the sum; the result goes out through a window
  whose block at point `t` is rows `256 t … 256 t + 255`. A row's result depends on that query row and on ALL keys
  and values, which every point has whole, so entry `(r, j)` of the output array, written by point `r / 256`, is the
  attention of the whole arrays at `(r, j)`.
-/
import proofs.«120721_j30837865185734_2_alg».proof.Proof.Gen.KernelIdeal.Frame
import proofs.«120721_j30837865185734_2_alg».proof.Proof.Payload
import proofs.«120721_j30837865185734_2_alg».proof.Proof.Spec
import Idealize.ShloMosaic.Lib.Pipeline.Value
import Idealize.ShloMosaic.Lib.ValueIdx

set_option maxRecDepth 16384

noncomputable section

namespace Cert.SelfAttn.Region1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.SelfAttn

/-- The scores of whole query and key arrays: row `a` of the queries against row `k` of the keys. -/
def scoresOf (Qs Ks : S4096x1024.Idx → EReal) (a k : Fin 4096) : EReal :=
  ∑ d : Fin 1024, grid2 Qs a d * grid2 Ks k d

/-- Attention of whole query, key and value arrays, dividing after the values are mixed, as an array. -/
def attnOf (Qs Ks Vs : S4096x1024.Idx → EReal) : S4096x1024.Idx → EReal :=
  fun i => mixThenDivide (scoresOf Qs Ks) (grid2 Vs) (i 0) (i 1)

theorem hz2 : (![0, 0] : Fin 2 → Nat) = fun _ => 0 := funext fun a => by fin_cases a <;> rfl

/-- The query window and the output window sit on row block `t` at point `t`; the key and value windows on block 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin Cert.KernelIdeal.grid1.N, _)

variable (V : (c : Dev nD) → (b : Ref sig .tc) → Buf (Elt Ideal) ((c : Thread nD τ).loc b))

/-- The query window at point `t` holds rows `256 t + p` of the query array. -/
theorem queries_block (c : Dev nD) (t : Fin cfg1.N) (p : Fin 256) (d : Fin 1024) (hr : t.val * 256 + p.val < 4096) :
    iblk1 V c 0 t (ix2 p d) = (V c main_v3_0 : S4096x1024.Idx → EReal) (ix2 ⟨t.val * 256 + p.val, hr⟩ d) := by
  obtain ⟨e00, e01, -⟩ := idx_facts t
  show (V c main_v3_0 : S4096x1024.Idx → EReal) (((cfg1.win 0).blk t).view.emb (ix2 p d)) = _
  congr 1
  funext a; apply Fin.ext
  match a with
  | ⟨0, _⟩ => show win1_0.index t (0 : Fin 2) * 256 + 1 * p.val = t.val * 256 + p.val; rw [e00]; omega
  | ⟨1, _⟩ => show win1_0.index t (1 : Fin 2) * 1024 + 1 * d.val = d.val; rw [e01]; omega

/-- The key window holds the whole key array at every point. -/
theorem keys_block (c : Dev nD) (t : Fin cfg1.N) (k : Fin 4096) (d : Fin 1024) :
    iblk1 V c 1 t (ix2 k d) = (V c main_v3_1 : S4096x1024.Idx → EReal) (ix2 k d) := by
  obtain ⟨-, -, e10, e11, -⟩ := idx_facts t
  show (V c main_v3_1 : S4096x1024.Idx → EReal) (((cfg1.win 1).blk t).view.emb (ix2 k d)) = _
  congr 1
  funext a; apply Fin.ext
  match a with
  | ⟨0, _⟩ => show win1_1.index t (0 : Fin 2) * 4096 + 1 * k.val = k.val; rw [e10]; omega
  | ⟨1, _⟩ => show win1_1.index t (1 : Fin 2) * 1024 + 1 * d.val = d.val; rw [e11]; omega

/-- The value window holds the whole value array at every point. -/
theorem values_block (c : Dev nD) (t : Fin cfg1.N) (k : Fin 4096) (j : Fin 1024) :
    iblk1 V c 2 t (ix2 k j) = (V c main_v3_2 : S4096x1024.Idx → EReal) (ix2 k j) := by
  obtain ⟨-, -, -, -, e20, e21, -⟩ := idx_facts t
  show (V c main_v3_2 : S4096x1024.Idx → EReal) (((cfg1.win 2).blk t).view.emb (ix2 k j)) = _
  congr 1
  funext a; apply Fin.ext
  match a with
  | ⟨0, _⟩ => show win1_2.index t (0 : Fin 2) * 4096 + 1 * k.val = k.val; rw [e20]; omega
  | ⟨1, _⟩ => show win1_2.index t (1 : Fin 2) * 1024 + 1 * j.val = j.val; rw [e21]; omega

/-- An index of the array is in point `t`'s output block iff each coordinate is in the block's range. -/
theorem mem_blk3 (t : Fin cfg1.N) (i : S4096x1024.Idx) :
    i ∈ ((cfg1.win 3).blk t).view.set ↔ ∀ a : Fin 2, win1_3.index t a * S256x1024.size a ≤ (i a).val ∧ (i a).val < win1_3.index t a * S256x1024.size a + S256x1024.size a := by
  show i ∈ ((View.whole main_v4).slice (win1_3.rect t)).set ↔ _
  rw [View.set_slice_whole, Rect.mem_set_unit]
  exact Iff.rfl

/-- Every row of the array lies in the block of the point `row / 256`. -/
theorem cover3 (i : S4096x1024.Idx) : ∃ t : Fin cfg1.N, (cfg1.win 3).flush t = true ∧ i ∈ ((cfg1.win 3).blk t).view.set := by
  have hN : cfg1.N = 16 := N_1
  have hi0 : (i 0).val < 4096 := (i 0).isLt
  have hi1 : (i 1).val < 1024 := (i 1).isLt
  have ht : (i 0).val / 256 < cfg1.N := by rw [hN]; omega
  obtain ⟨-, -, -, -, -, -, e30, e31⟩ := idx_facts ⟨(i 0).val / 256, ht⟩
  refine ⟨⟨(i 0).val / 256, ht⟩, flush1_3 _, ?_⟩
  rw [mem_blk3]
  intro a
  match a with
  | ⟨0, _⟩ =>
    show win1_3.index ⟨(i 0).val / 256, ht⟩ (0 : Fin 2) * 256 ≤ (i 0).val ∧ (i 0).val < win1_3.index ⟨(i 0).val / 256, ht⟩ (0 : Fin 2) * 256 + 256
    rw [e30]
    show (i 0).val / 256 * 256 ≤ (i 0).val ∧ (i 0).val < (i 0).val / 256 * 256 + 256
    omega
  | ⟨1, _⟩ =>
    show win1_3.index ⟨(i 0).val / 256, ht⟩ (1 : Fin 2) * 1024 ≤ (i 1).val ∧ (i 1).val < win1_3.index ⟨(i 0).val / 256, ht⟩ (1 : Fin 2) * 1024 + 1024
    rw [e31]
    omega

/-- What point `t` writes back is block `t` of the attention of the arrays the region found. -/
theorem flushed3 (c : Dev nD) (t : Fin cfg1.N) :
    (dat1 V c).flushed 3 t = ((cfg1.win 3).blk t).view.read (Elt Ideal)
      (attnOf (V c main_v3_0) (V c main_v3_1) (V c main_v3_2)) := by
  show (cfg1.win 3).cut (Cert.KernelIdeal.grid1.coords t) ((dat1 V c).after 3 t) = _
  rw [after1_3]
  unfold out1_3
  rw [View.canon_unit_zero hz2]
  simp only [View.ld_unit_zero (S := S256x1024) hz2, View.ld_unit_zero (S := S4096x1024) hz2]
  funext y
  obtain ⟨p, j, rfl⟩ : ∃ (p : Fin 256) (j : Fin 1024), y = ix2 p j := ⟨y 0, y 1, eq_ix2 y⟩
  have hN : cfg1.N = 16 := N_1
  have hr : t.val * 256 + p.val < 4096 := by have := t.isLt; have := p.isLt; omega
  obtain ⟨-, -, -, -, -, -, e30, e31⟩ := idx_facts t
  have eo : ((cfg1.win 3).blk t).view.emb (ix2 p j) = (ix2 ⟨t.val * 256 + p.val, hr⟩ j : S4096x1024.Idx) := by
    funext a; apply Fin.ext
    match a with
    | ⟨0, _⟩ => show win1_3.index t (0 : Fin 2) * 256 + 1 * p.val = t.val * 256 + p.val; rw [e30]; omega
    | ⟨1, _⟩ => show win1_3.index t (1 : Fin 2) * 1024 + 1 * j.val = j.val; rw [e31]; omega
  refine (attention_block (iblk1 V c 0 t) (iblk1 V c 1 t) (iblk1 V c 2 t) p j).trans ?_
  show _ = attnOf (V c main_v3_0) (V c main_v3_1) (V c main_v3_2) (((cfg1.win 3).blk t).view.emb (ix2 p j))
  rw [eo]
  have hq : ∀ d : Fin 1024, iblk1 V c 0 t (ix2 p d) = (V c main_v3_0 : S4096x1024.Idx → EReal) (ix2 ⟨t.val * 256 + p.val, hr⟩ d) :=
    fun d => queries_block V c t p d hr
  have hk : ∀ (k : Fin 4096) (d : Fin 1024), iblk1 V c 1 t (ix2 k d) = (V c main_v3_1 : S4096x1024.Idx → EReal) (ix2 k d) :=
    fun k d => keys_block V c t k d
  have hv : ∀ k : Fin 4096, iblk1 V c 2 t (ix2 k j) = (V c main_v3_2 : S4096x1024.Idx → EReal) (ix2 k j) :=
    fun k => values_block V c t k j
  simp only [hq, hk, hv]
  rfl

/-- After the region, the output array holds the attention of the arrays the region found. -/
theorem attended (c : Dev nD) :
    (dat1 V c).arrAt 3 cfg1.N = attnOf (V c main_v3_0) (V c main_v3_1) (V c main_v3_2) :=
  (dat1 V c).arrAt_eq_of_cover 3 _ (fun t _ => flushed3 V c t) cover3

end Cert.SelfAttn.Region1

end
-- ==== Proof.KernelValue.lean ====
/-
  The kernel program's result as one function of its arguments.

  The second region's output array is the attention of the three arrays it finds (its query, key and value inputs).
  Those are the first region's three output arrays: the scaled query layer, the key layer and the value layer of the
  arrays the FIRST region found. And the first region found the token array and the biases as launched and each
  converted weight matrix equal to the launched one (a change of float format is the identity on extended reals).
  Composing the three steps, the result is attention with the scale folded into the queries and the division after
  mixing, of the seven launched arguments.
-/
import proofs.«120721_j30837865185734_2_alg».proof.Proof.Entry
import proofs.«120721_j30837865185734_2_alg».proof.Proof.Region0
import proofs.«120721_j30837865185734_2_alg».proof.Proof.Region1

set_option maxRecDepth 16384

noncomputable section

namespace Cert.SelfAttn.KernelValue

open Idealize.ShloMosaic Idealize.ShloMosaic.TcCoe Idealize.ShloMosaic.ValueIdx
open Idealize.SL Idealize.SL.Sem
open Cert.KernelIdeal Cert.KernelIdeal.Gen Cert.SelfAttn

variable (m : (ℓ : Loc nD τ sig) → Buf (Elt Ideal) ℓ) (ρ : Dev nD → PrngReg)

/-- The second region's query input is the scaled query layer of the launched arguments. -/
theorem found_queries (c : Dev nD) :
    (V2 m ρ c main_v3_0 : S4096x1024.Idx → EReal)
      = Region0.scaledLayer (m ((c : Thread nD τ).loc main_arg0)) (m ((c : Thread nD τ).loc main_arg1)) (m ((c : Thread nD τ).loc main_arg2)) (Ideal.ofBits .f32 0x3D000000#32) := by
  refine (W2_arr m ρ c 7).trans ((Region0.queries (V1 m ρ) c).trans ?_)
  rw [Entry.tokens m ρ c, Entry.weights_q m ρ c, Entry.bias_q m ρ c]

/-- The second region's key input is the key layer of the launched arguments. -/
theorem found_keys (c : Dev nD) :
    (V2 m ρ c main_v3_1 : S4096x1024.Idx → EReal)
      = Region0.layer (m ((c : Thread nD τ).loc main_arg0)) (m ((c : Thread nD τ).loc main_arg3)) (m ((c : Thread nD τ).loc main_arg4)) := by
  refine (W2_arr m ρ c 8).trans ((Region0.keys (V1 m ρ) c).trans ?_)
  rw [Entry.tokens m ρ c, Entry.weights_k m ρ c, Entry.bias_k m ρ c]

/-- The second region's value input is the value layer of the launched arguments. -/
theorem found_values (c : Dev nD) :
    (V2 m ρ c main_v3_2 : S4096x1024.Idx → EReal)
      = Region0.layer (m ((c : Thread nD τ).loc main_arg0)) (m ((c : Thread nD τ).loc main_arg5)) (m ((c : Thread nD τ).loc main_arg6)) := by
  refine (W2_arr m ρ c 9).trans ((Region0.values (V1 m ρ) c).trans ?_)
  rw [Entry.tokens m ρ c, Entry.weights_v m ρ c, Entry.bias_v m ρ c]

/-- Attention of the three layers, read at an index, is the specification's arrangement with the scale on the
    query: the two only differ in how an entry of a layer is addressed. -/
theorem attnOf_layers (X : S4096x1024.Idx → EReal) (Wq : S1024x1024.Idx → EReal) (bq : S1024.Idx → EReal)
    (Wk : S1024x1024.Idx → EReal) (bk : S1024.Idx → EReal) (Wv : S1024x1024.Idx → EReal) (bv : S1024.Idx → EReal) (s : EReal) :
    Region1.attnOf (Region0.scaledLayer X Wq bq s) (Region0.layer X Wk bk) (Region0.layer X Wv bv)
      = attnScaledQuery X Wq bq Wk bk Wv bv s := rfl

/-- The result array after the run. -/
theorem result_array (c : Dev nD) :
    (dat1 (V2 m ρ) c).arrAt 3 cfg1.N
      = attnScaledQuery (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (Ideal.ofBits .f32 0x3D000000#32) := by
  refine (Region1.attended (V2 m ρ) c).trans ?_
  rw [found_queries m ρ c, found_keys m ρ c, found_values m ρ c]
  exact attnOf_layers _ _ _ _ _ _ _ _

end Cert.SelfAttn.KernelValue

end
-- ==== Proof.LibHostRowMax.lean ====
/-
  The host's largest entry along the columns, read at a row.

  At the ideal instance a float is an extended real and a maximum is the exact fold of `max` in any order. For an
  `[a, b]` matrix, the host's `reduce` with a `maximum` body over axis 1, read at row `p`, is the fold of `max` from
  the initial value over the row's entries `(p, k)`: the rank-2 companion of the rank-3 form `hostMax_last3`, over the
  same index fact `lift_row`.
-/
import proofs.«120721_j30837865185734_2_alg».proof.Proof.LibRowMax

noncomputable section

namespace Cert.LibHostRowMax

open Idealize.ShloMosaic Idealize.ShloMosaic.ValueIdx

/-- The host's `reduce` with a `maximum` body along the columns of an `[a, b]` array, read at row `p`: the fold of
    `max` from the initial value over the row's entries. -/
theorem hostMax_row {a b : ℕ} {u : Shape} (x : FVec Ideal ⟨2, ![a, b]⟩ .f32) (init : FVec Ideal u .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) fun k => x (ix2 p k) := by
  have h : (⟨2, ![a, b]⟩ : Shape).Reduces [1] ⟨1, ![a]⟩ := ⟨h'.1, Nat.one_pos, h'.2⟩
  refine (Host.reduce_eq_fold_single (FloatOps.maximumf (F := Ideal) (φ := .f32)) x init h' h hu (ix1 p)).trans ?_
  exact congrArg (fun f => Finset.fold max (init (Shape.Idx.first hu)) f (Finset.univ : Finset (Fin b)))
    (funext fun k => congrArg x (Cert.LibRowMax.lift_row h p k))

end Cert.LibHostRowMax

end
-- ==== Proof.RefValue.lean ====
/-
  The reference program computes single-head self-attention with the scale on the scores and every softmax
  weight divided by its row's normaliser before the values are mixed.

  Read one operation at a time at an index built from coordinates, the reference's stages are the pieces of the
  specification: the three affine layers are `lin`; the product of the queries with the transposed keys, times
  the broadcast quotient `1 / sqrt 1024`, is `scoresThenScale`; the row maximum, folded from -∞ and then joined
  once more with -∞, is `rowMax`; the exponential of the shifted score is `weight`; the row sum started from zero
  is `normaliser`; and the last product with the values is `divideThenMix`. So the whole result is
  `attnScaledScores` of the seven argument arrays.
-/
import proofs.«120721_j30837865185734_2_alg».proof.Proof.Gen.ReferenceIdeal.Read
import proofs.«120721_j30837865185734_2_alg».proof.Proof.Spec
import proofs.«120721_j30837865185734_2_alg».proof.Proof.LibRowMax
import proofs.«120721_j30837865185734_2_alg».proof.Proof.LibHostRowMax

noncomputable section

namespace Cert.SelfAttn.RefValue

open Idealize.ShloMosaic Idealize.ShloMosaic.TcCoe Idealize.SL.Sem Idealize.ShloMosaic.ValueIdx
open Cert.ReferenceIdeal Cert.ReferenceIdeal.Gen Cert.ReferenceIdeal.Read

/-- The word of -∞ denotes the bottom of the extended reals. -/
private theorem negInf_eq_bot : Ideal.ofBits .f32 0xFF800000#32 = (⊥ : EReal) := by
  simp [Ideal.ofBits, Ideal.ieee]

/-- The reference's scale: the quotient of the words of `1` and of `sqrt 1024`, left unevaluated. -/
abbrev refScale : EReal :=
  Ideal.div (Ideal.ofBits .f32 0x3F800000#32) (Ideal.sqrt (Ideal.ofBits .f32 0x44800000#32))

variable (X : FVec Ideal S4096x1024 .f32) (Wq : FVec Ideal S1024x1024 .f32) (bq : FVec Ideal S1024 .f32)
  (Wk : FVec Ideal S1024x1024 .f32) (bk : FVec Ideal S1024 .f32)
  (Wv : FVec Ideal S1024x1024 .f32) (bv : FVec Ideal S1024 .f32)

/-- The scaled scores of the specification, of the argument arrays. -/
abbrev refScores : Fin 4096 → Fin 4096 → EReal :=
  scoresThenScale (lin (grid2 X) (grid2 Wq) (grid1 bq)) (lin (grid2 X) (grid2 Wk) (grid1 bk)) refScale

/-- The queries: the first affine layer. -/
theorem queries_at (i : Fin 4096) (j : Fin 1024) :
    val_main_v3 (F := Ideal) X Wq bq (ix2 i j) = lin (grid2 X) (grid2 Wq) (grid1 bq) i j := by
  have e1 : ∀ d : Fin 1024, lidx_main_v0 (ix2 i j) d = ix2 i d := fun d =>
    funext fun a => Fin.ext (by match a with | ⟨0, _⟩ => rfl | ⟨1, _⟩ => rfl)
  have e2 : ∀ d : Fin 1024, ridx_main_v0 (ix2 i j) d = ix2 d j := fun d =>
    funext fun a => Fin.ext (by match a with | ⟨0, _⟩ => rfl | ⟨1, _⟩ => rfl)
  have e3 : idx_main_v1 (idx_main_v2 (ix2 i j)) = ix1 j :=
    funext fun a => Fin.ext (by match a with | ⟨0, _⟩ => rfl)
  rw [val_main_v3_apply, val_main_v0_apply, val_main_v2_apply, val_main_v1_apply, e3]
  simp only [e1, e2, Ideal.addf_def]
  rfl

/-- The keys: the second affine layer. -/
theorem keys_at (i : Fin 4096) (j : Fin 1024) :
    val_main_v7 (F := Ideal) X Wk bk (ix2 i j) = lin (grid2 X) (grid2 Wk) (grid1 bk) i j := by
  have e1 : ∀ d : Fin 1024, lidx_main_v4 (ix2 i j) d = ix2 i d := fun d =>
    funext fun a => Fin.ext (by match a with | ⟨0, _⟩ => rfl | ⟨1, _⟩ => rfl)
  have e2 : ∀ d : Fin 1024, ridx_main_v4 (ix2 i j) d = ix2 d j := fun d =>
    funext fun a => Fin.ext (by match a with | ⟨0, _⟩ => rfl | ⟨1, _⟩ => rfl)
  have e3 : idx_main_v5 (idx_main_v6 (ix2 i j)) = ix1 j :=
    funext fun a => Fin.ext (by match a with | ⟨0, _⟩ => rfl)
  rw [val_main_v7_apply, val_main_v4_apply, val_main_v6_apply, val_main_v5_apply, e3]
  simp only [e1, e2, Ideal.addf_def]
  rfl

/-- The values: the third affine layer. -/
theorem values_at (i : Fin 4096) (j : Fin 1024) :
    val_main_v11 (F := Ideal) X Wv bv (ix2 i j) = lin (grid2 X) (grid2 Wv) (grid1 bv) i j := by
  have e1 : ∀ d : Fin 1024, lidx_main_v8 (ix2 i j) d = ix2 i d := fun d =>
    funext fun a => Fin.ext (by match a with | ⟨0, _⟩ => rfl | ⟨1, _⟩ => rfl)
  have e2 : ∀ d : Fin 1024, ridx_main_v8 (ix2 i j) d = ix2 d j := fun d =>
    funext fun a => Fin.ext (by match a with | ⟨0, _⟩ => rfl | ⟨1, _⟩ => rfl)
  have e3 : idx_main_v9 (idx_main_v10 (ix2 i j)) = ix1 j :=
    funext fun a => Fin.ext (by match a with | ⟨0, _⟩ => rfl)
  rw [val_main_v11_apply, val_main_v8_apply, val_main_v10_apply, val_main_v9_apply, e3]
  simp only [e1, e2, Ideal.addf_def]
  rfl

/-- The scaled scores: query row `i` against key row `k` (the keys are read transposed), times the scale. -/
theorem scores_at (i k : Fin 4096) :
    val_main_v17 (F := Ideal) X Wq bq Wk bk (ix2 i k) = refScores X Wq bq Wk bk i k := by
  have e1 : ∀ d : Fin 1024, lidx_main_v15 (ix2 i k) d = ix2 i d := fun d =>
    funext fun a => Fin.ext (by match a with | ⟨0, _⟩ => rfl | ⟨1, _⟩ => rfl)
  have e2 : ∀ d : Fin 1024, idx_main_v14 (ridx_main_v15 (ix2 i k) d) = ix2 k d := fun d =>
    funext fun a => Fin.ext (by match a with | ⟨0, _⟩ => rfl | ⟨1, _⟩ => rfl)
  rw [val_main_v17_apply, val_main_v15_apply, val_main_v16_apply, val_main_v13_apply, val_main_v12_apply,
    val_main_cst_apply, val_main_cst_0_apply]
  simp only [val_main_v14_apply, e1, e2, queries_at, keys_at, Ideal.mulf_def, Ideal.hostDivf_def,
    Ideal.hostUnary_sqrt_def, Ideal.ofBits_def]
  rfl

/-- The fold of the row maximum, started from the word of -∞. -/
theorem foldMax_at (i : Fin 4096) :
    val_main_v18 (F := Ideal) X Wq bq Wk bk (ix1 i) = rowMax (refScores X Wq bq Wk bk) i := by
  unfold val_main_v18
  refine (Cert.LibHostRowMax.hostMax_row _ _ reducesTo_S4096x4096_S4096_d1 h_S_ i).trans ?_
  rw [val_main_cst_1_apply, Ideal.ofBits_def, negInf_eq_bot]
  simp only [scores_at]
  rfl

/-- The row maximum: joining the fold once more with -∞ changes nothing. -/
theorem rowMax_at (i : Fin 4096) :
    val_main_v20 (F := Ideal) X Wq bq Wk bk (ix1 i) = rowMax (refScores X Wq bq Wk bk) i := by
  rw [val_main_v20_apply, val_main_v19_apply, val_main_cst_2_apply, foldMax_at, Ideal.maximumf_def, Ideal.ofBits_def,
    negInf_eq_bot]
  exact max_bot_left _

/-- The unnormalised softmax weight. -/
theorem weight_at (i k : Fin 4096) :
    val_main_v24 (F := Ideal) X Wq bq Wk bk (ix2 i k) = weight (refScores X Wq bq Wk bk) i k := by
  have e : idx_main_v21 (idx_main_v22 (ix2 i k)) = ix1 i :=
    funext fun a => Fin.ext (by match a with | ⟨0, _⟩ => rfl)
  rw [val_main_v24_apply, val_main_v23_apply, val_main_v22_apply, val_main_v21_apply, e, rowMax_at, scores_at,
    Ideal.hostUnary_exp_def, Ideal.subf_def]
  rfl

/-- The row's normaliser: the sum of the weights, the leading zero dropped. -/
theorem normaliser_at (i : Fin 4096) :
    val_main_v25 (F := Ideal) X Wq bq Wk bk (ix1 i) = normaliser (refScores X Wq bq Wk bk) i := by
  have e : ∀ k : Fin 4096, idx_main_v25 (ix1 i) k = ix2 i k := fun k =>
    funext fun a => Fin.ext (by match a with | ⟨0, _⟩ => rfl | ⟨1, _⟩ => rfl)
  rw [val_main_v25_apply, val_main_cst_3_apply]
  simp only [e, weight_at, Ideal.ofBits_def, Ideal.ofBits_zero_f32, zero_add]
  rfl

/-- The normalised weight: the weight divided by its row's normaliser. -/
theorem softmax_at (i k : Fin 4096) :
    val_main_v28 (F := Ideal) X Wq bq Wk bk (ix2 i k)
      = Ideal.div (weight (refScores X Wq bq Wk bk) i k) (normaliser (refScores X Wq bq Wk bk) i) := by
  have e : idx_main_v26 (idx_main_v27 (ix2 i k)) = ix1 i :=
    funext fun a => Fin.ext (by match a with | ⟨0, _⟩ => rfl)
  rw [val_main_v28_apply, val_main_v27_apply, val_main_v26_apply, e, weight_at, normaliser_at, Ideal.hostDivf_def]

/-- The reference's last stage, as a function of the seven argument arrays, is the specification with the scale on
    the scores and the division before the mixing. -/
theorem reference_result :
    Cert.ReferenceIdeal.Read.val_main_v29 (F := Ideal) X Wq bq Wk bk Wv bv
      = Cert.SelfAttn.attnScaledScores X Wq bq Wk bk Wv bv
          (Ideal.div (Ideal.ofBits .f32 0x3F800000#32) (Ideal.sqrt (Ideal.ofBits .f32 0x44800000#32))) := by
  funext idx
  obtain ⟨p, q, rfl⟩ : ∃ (p : Fin 4096) (q : Fin 1024), idx = ix2 p q := ⟨idx 0, idx 1, eq_ix2 idx⟩
  have e1 : ∀ k : Fin 4096, lidx_main_v29 (ix2 p q) k = ix2 p k := fun k =>
    funext fun a => Fin.ext (by match a with | ⟨0, _⟩ => rfl | ⟨1, _⟩ => rfl)
  have e2 : ∀ k : Fin 4096, ridx_main_v29 (ix2 p q) k = ix2 k q := fun k =>
    funext fun a => Fin.ext (by match a with | ⟨0, _⟩ => rfl | ⟨1, _⟩ => rfl)
  rw [val_main_v29_apply, attnScaledScores_ix2]
  simp only [e1, e2, softmax_at, values_at]
  rfl

/-- The term the reference's run names for its result is the specification of the launch contents of the arguments. -/
theorem reference_run (m : (ℓ : Loc nD τ sig) → Buf (Elt Ideal) ℓ) (c : Dev nD) :
    Cert.ReferenceIdeal.Value.res_main_v29 (F := Ideal) m c
      = Cert.SelfAttn.attnScaledScores (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6))
          (Ideal.div (Ideal.ofBits .f32 0x3F800000#32) (Ideal.sqrt (Ideal.ofBits .f32 0x44800000#32))) :=
  (val_main_v29_eq m c).trans (reference_result _ _ _ _ _ _ _)

end Cert.SelfAttn.RefValue

end
-- ==== Proof.LibFinite.lean ====
/-
  GENERAL LEMMAS: a printed "is finite" test read back over the extended reals. At the ideal instance a float is an
  extended real, `|x|` is `max x (-x)`, a comparison is the linear order's, and the word 0x7F800000 denotes `+∞`. So the
  one-bit word of `|x| < +∞` being 1 says that `x` is a real number. Nothing here mentions a program.
-/
import Idealize.ShloMosaic.PureOps.Ideal

noncomputable section

namespace Cert.Lib.Finite

open Idealize.ShloMosaic

/-- The scalar shape has one index. -/
instance : Subsingleton (⟨0, ![]⟩ : Shape).Idx := ⟨fun a b => funext fun d => d.elim0⟩

/-- The word 0x7F800000 denotes `+∞`. -/
theorem ofBits_inf : Ideal.ofBits .f32 0x7F800000#32 = (⊤ : EReal) := by
  simp [Ideal.ofBits, Ideal.ieee]

/-- An extended real whose absolute value `max x (-x)` is below `+∞` is a real: `+∞` is its own absolute value, and
    `-∞`'s is `+∞` too. -/
theorem real_of_abs_lt_top (x : EReal) (h : max x (-x) < ⊤) : ∃ r : ℝ, x = (r : EReal) := by
  induction x using EReal.rec with
  | bot => simp at h
  | coe r => exact ⟨r, rfl⟩
  | top => simp at h

/-- The comparison `|x| < +∞` read back from its one-bit word: if it is 1, `x` is a real. -/
theorem real_of_cmp (x : EReal)
    (h : Ideal.cmp .olt (max x (-x)) (Ideal.ofBits .f32 0x7F800000#32) = 1#1) : ∃ r : ℝ, x = (r : EReal) := by
  refine real_of_abs_lt_top x ?_
  by_contra hn
  rw [ofBits_inf] at h
  simp [Ideal.cmp, hn] at h

end Cert.Lib.Finite

end
-- ==== Proof.LibAllFinite.lean ====
/-
  A printed "all entries finite" test read back over the extended reals.

  A program tests an array for finiteness by comparing the absolute value of every entry with `+∞` and folding the
  one-bit answers by `and` over all axes into one bit. At the ideal instance a float is an extended real, so if that
  bit is 1 every comparison is 1 and every entry is a real number. The array of `+∞` may be any array whose every
  entry is the word 0x7F800000 (a broadcast constant). Nothing here mentions a program.
-/
import proofs.«120721_j30837865185734_2_alg».proof.Proof.LibFinite
import Idealize.ShloMosaic.Lib.ReduceAll

noncomputable section

namespace Cert.Lib.AllFinite

open Idealize.ShloMosaic

/-- An array `A` of any shape is compared entry by entry, `|A i| < top i`, against an array `top` whose every entry is
    `+∞`, and the answers are folded by `and` over the reduced axes into a result of one index. If the fold is 1,
    every comparison is 1, so every entry of `A` is a real number. -/
theorem real_of_all_abs_lt_top {s t u : Shape} [Subsingleton t.Idx] {axes : List (Fin s.rank)}
    (A top : FVec Ideal s .f32) (htop : ∀ i, top i = Ideal.ofBits .f32 0x7F800000#32)
    (init : IVec u 1) (h : s.ReducesTo axes t) (hu : 0 < u.numel) (j : t.Idx)
    (e : Host.reduce IntOp.andi (cmpf .olt (Host.absf A) top) init h hu j = 1#1) :
    ∀ i, ∃ r : ℝ, A i = (r : EReal) := by
  intro i
  have hi : cmpf .olt (Host.absf A) top i = 1#1 := Host.reduce_andi_all _ init h hu j e i
  refine Cert.Lib.Finite.real_of_cmp (A i) ?_
  rw [← htop i]
  exact hi

end Cert.Lib.AllFinite

end
-- ==== Proof.Finite.lean ====
/-
  Finiteness of the inputs, read back from the printed precondition.

  The precondition tests each of the seven inputs the same way: the absolute value of every entry is compared
  with `+∞` (the word 0x7F800000), the one-bit answers are folded by `and` over the whole array, and the seven
  folds are joined by `and`. If the joined bit is 1 then each fold is 1, so each entry's comparison is 1, so each
  entry's absolute value lies below `+∞`: the entry is a real number.
-/
import proofs.«120721_j30837865185734_2_alg».proof.Pre_finite_inputs
import proofs.«120721_j30837865185734_2_alg».proof.Proof.Gen.Pre_finite_inputs
import proofs.«120721_j30837865185734_2_alg».proof.Proof.Spec
import proofs.«120721_j30837865185734_2_alg».proof.Proof.LibFinite
import proofs.«120721_j30837865185734_2_alg».proof.Proof.LibAllFinite
import Idealize.ShloMosaic.Lib.ReduceAll

noncomputable section

namespace Cert.SelfAttn

open Idealize.ShloMosaic

/-- The precondition holds, so every entry of every input is a real number: the joined bit splits into the seven
    folds, and each fold is one input's test. -/
theorem allReal_of_finite_inputs [Cert.Pre_finite_inputs.Facts]
    (X : FVec Ideal Cert.Pre_finite_inputs.S4096x1024 .f32) (Wq : FVec Ideal Cert.Pre_finite_inputs.S1024x1024 .f32) (bq : FVec Ideal Cert.Pre_finite_inputs.S1024 .f32)
    (Wk : FVec Ideal Cert.Pre_finite_inputs.S1024x1024 .f32) (bk : FVec Ideal Cert.Pre_finite_inputs.S1024 .f32)
    (Wv : FVec Ideal Cert.Pre_finite_inputs.S1024x1024 .f32) (bv : FVec Ideal Cert.Pre_finite_inputs.S1024 .f32)
    (h : Cert.Pre_finite_inputs.fn (F := Ideal) X Wq bq Wk bk Wv bv = (fun _ => 1#1)) :
    AllReal X ∧ AllReal Wq ∧ AllReal bq ∧ AllReal Wk ∧ AllReal bk ∧ AllReal Wv ∧ AllReal bv := by
  have e := congrFun h ValueIdx.ix0
  dsimp only [Cert.Pre_finite_inputs.fn, Cert.Pre_finite_inputs.fn_part1] at e
  simp only [andi, IntOp.andi_eq_one] at e
  obtain ⟨⟨⟨⟨⟨⟨h0, h1⟩, h2⟩, h3⟩, h4⟩, h5⟩, h6⟩ := e
  exact ⟨Cert.Lib.AllFinite.real_of_all_abs_lt_top X _ (fun _ => rfl) _ _ _ _ h0,
    Cert.Lib.AllFinite.real_of_all_abs_lt_top Wq _ (fun _ => rfl) _ _ _ _ h1,
    Cert.Lib.AllFinite.real_of_all_abs_lt_top bq _ (fun _ => rfl) _ _ _ _ h2,
    Cert.Lib.AllFinite.real_of_all_abs_lt_top Wk _ (fun _ => rfl) _ _ _ _ h3,
    Cert.Lib.AllFinite.real_of_all_abs_lt_top bk _ (fun _ => rfl) _ _ _ _ h4,
    Cert.Lib.AllFinite.real_of_all_abs_lt_top Wv _ (fun _ => rfl) _ _ _ _ h5,
    Cert.Lib.AllFinite.real_of_all_abs_lt_top bv _ (fun _ => rfl) _ _ _ _ h6⟩

end Cert.SelfAttn

end
-- ==== Proof.Algebra.lean ====
/-
  The two arrangements of single-head self-attention in Proof/Spec.lean agree when every entry is a real number.

  With real entries every affine layer's value is a real (a finite sum of products of reals plus a real). For real
  queries and keys, `∑ d, (Q i d * c) * K k d = (∑ d, Q i d * K k d) * c` in ℝ, so the two score functions are the
  same function. For one real-valued score function the row maximum (a maximum of finitely many reals, at least
  one) is a real, every weight `exp (s i k - max)` is a positive real, the normaliser is a positive real, hence
  nonzero, and dividing by it is multiplying by its reciprocal: `(∑ k, w k * V k j) * (1/L) = ∑ k, (w k * (1/L)) * V k j`.
-/
import proofs.«120721_j30837865185734_2_alg».proof.Proof.Spec

noncomputable section

namespace Cert.SelfAttn

open Idealize.ShloMosaic Idealize.ShloMosaic.ValueIdx

/-! ### Finite sums and maxima of reals, inside the extended reals -/

/-- The inclusion of ℝ in the extended reals commutes with finite sums. -/
theorem coe_sum {ι : Type} (s : Finset ι) (f : ι → ℝ) :
    ((∑ k ∈ s, f k : ℝ) : EReal) = ∑ k ∈ s, (f k : EReal) := by
  classical
  refine Finset.induction_on s (by simp) ?_
  intro a s ha ih
  rw [Finset.sum_insert ha, Finset.sum_insert ha, EReal.coe_add, ih]

/-- The inclusion of ℝ in the extended reals commutes with `max` (it is monotone). -/
theorem coe_max (x y : ℝ) : ((max x y : ℝ) : EReal) = max (x : EReal) (y : EReal) :=
  EReal.coe_strictMono.monotone.map_max

/-- A maximum, started from `-∞`, of finitely many reals, at least one, is a real. -/
theorem fold_max_real {ι : Type} {s : Finset ι} (hs : s.Nonempty) (f : ι → ℝ) :
    ∃ r : ℝ, s.fold max ⊥ (fun k => (f k : EReal)) = (r : EReal) := by
  induction hs using Finset.Nonempty.cons_induction with
  | singleton a => exact ⟨f a, by rw [Finset.fold_singleton]; exact max_bot_right _⟩
  | cons a s ha hs ih =>
    obtain ⟨r, hr⟩ := ih
    exact ⟨max (f a) r, by rw [Finset.fold_cons, hr, coe_max]⟩

/-- Dividing a mixed sum by a nonzero real is mixing with each weight divided by it:
    `(∑ k, ω k * v k) * (1/L) = ∑ k, (ω k * (1/L)) * v k`. -/
theorem div_mix {ι : Type} [Fintype ι] (ω v : ι → ℝ) (L : ℝ) (hL : L ≠ 0) :
    Ideal.div (∑ k, (ω k : EReal) * (v k : EReal)) (L : EReal)
      = ∑ k, Ideal.div (ω k : EReal) (L : EReal) * (v k : EReal) := by
  have h1 : ∀ k, (ω k : EReal) * (v k : EReal) = ((ω k * v k : ℝ) : EReal) := fun k =>
    (EReal.coe_mul _ _).symm
  have h2 : ∀ k, Ideal.div (ω k : EReal) (L : EReal) * (v k : EReal) = ((ω k * (1 / L) * v k : ℝ) : EReal) :=
    fun k => by rw [Ideal.div_coe hL, EReal.coe_mul, EReal.coe_mul]
  simp only [h1, h2]
  rw [Ideal.div_coe hL, ← coe_sum Finset.univ (fun k => ω k * v k),
    ← coe_sum Finset.univ (fun k => ω k * (1 / L) * v k), ← EReal.coe_mul, Finset.sum_mul]
  exact congrArg _ (Finset.sum_congr rfl fun k _ => by ring)

/-! ### The affine layers and the scores -/

/-- An array of real entries, read by two coordinates, has real values. -/
theorem grid2_real {a b : Nat} {A : FVec Ideal (⟨2, ![a, b]⟩ : Shape) .f32} (hA : AllReal A) :
    ∀ i d, ∃ r : ℝ, grid2 A i d = (r : EReal) := fun i d => hA (ix2 i d)

/-- An array of real entries, read by one coordinate, has real values. -/
theorem grid1_real {a : Nat} {v : FVec Ideal (⟨1, ![a]⟩ : Shape) .f32} (hv : AllReal v) :
    ∀ j, ∃ r : ℝ, grid1 v j = (r : EReal) := fun j => hv (ix1 j)

/-- An affine layer of real inputs, weights and biases has real values. -/
theorem lin_real {X : Fin 4096 → Fin 1024 → EReal} {W : Fin 1024 → Fin 1024 → EReal} {b : Fin 1024 → EReal}
    (hX : ∀ i d, ∃ r : ℝ, X i d = (r : EReal)) (hW : ∀ d j, ∃ r : ℝ, W d j = (r : EReal))
    (hb : ∀ j, ∃ r : ℝ, b j = (r : EReal)) (i : Fin 4096) (j : Fin 1024) :
    ∃ r : ℝ, lin X W b i j = (r : EReal) := by
  choose x hx using hX
  choose w hw using hW
  choose β hβ using hb
  have h1 : ∀ d, X i d * W d j = ((x i d * w d j : ℝ) : EReal) := fun d => by
    rw [hx, hw, EReal.coe_mul]
  refine ⟨(∑ d, x i d * w d j) + β j, ?_⟩
  rw [lin, EReal.coe_add, coe_sum, hβ]
  simp only [h1]

/-- For real queries and keys the scale may be moved from the query to the product:
    `∑ d, (q d * c) * κ d = (∑ d, q d * κ d) * c`. -/
theorem scores_agree {Q K : Fin 4096 → Fin 1024 → EReal}
    (hQ : ∀ i d, ∃ r : ℝ, Q i d = (r : EReal)) (hK : ∀ i d, ∃ r : ℝ, K i d = (r : EReal)) (c : ℝ) :
    scoresScaledQuery Q K (c : EReal) = scoresThenScale Q K (c : EReal) := by
  choose q hq using hQ
  choose κ hκ using hK
  funext i k
  have h1 : ∀ d, (Q i d * (c : EReal)) * K k d = ((q i d * c * κ k d : ℝ) : EReal) := fun d => by
    rw [hq, hκ, EReal.coe_mul, EReal.coe_mul]
  have h2 : ∀ d, Q i d * K k d = ((q i d * κ k d : ℝ) : EReal) := fun d => by
    rw [hq, hκ, EReal.coe_mul]
  rw [scoresScaledQuery, scoresThenScale]
  simp only [h1, h2]
  rw [← coe_sum Finset.univ (fun d => q i d * c * κ k d), ← coe_sum Finset.univ (fun d => q i d * κ k d),
    ← EReal.coe_mul, Finset.sum_mul]
  exact congrArg _ (Finset.sum_congr rfl fun d _ => by ring)

/-- Scores of real queries and keys, scaled by a real, are reals. -/
theorem scoresThenScale_real {Q K : Fin 4096 → Fin 1024 → EReal}
    (hQ : ∀ i d, ∃ r : ℝ, Q i d = (r : EReal)) (hK : ∀ i d, ∃ r : ℝ, K i d = (r : EReal)) (c : ℝ)
    (i k : Fin 4096) : ∃ r : ℝ, scoresThenScale Q K (c : EReal) i k = (r : EReal) := by
  choose q hq using hQ
  choose κ hκ using hK
  have h2 : ∀ d, Q i d * K k d = ((q i d * κ k d : ℝ) : EReal) := fun d => by
    rw [hq, hκ, EReal.coe_mul]
  refine ⟨(∑ d, q i d * κ k d) * c, ?_⟩
  rw [scoresThenScale, EReal.coe_mul, coe_sum]
  simp only [h2]

/-! ### The softmax of one real-valued score function -/

/-- The largest score of a row of reals is a real. -/
theorem rowMax_real {s : Fin 4096 → Fin 4096 → EReal} (hs : ∀ i k, ∃ r : ℝ, s i k = (r : EReal))
    (i : Fin 4096) : ∃ m : ℝ, rowMax s i = (m : EReal) := by
  choose σ hσ using hs
  obtain ⟨m, hm⟩ := fold_max_real (s := (Finset.univ : Finset (Fin 4096))) Finset.univ_nonempty (fun k => σ i k)
  refine ⟨m, ?_⟩
  rw [rowMax]
  simp only [hσ]
  exact hm

/-- Every weight of a row of real scores is a positive real. -/
theorem weight_real_pos {s : Fin 4096 → Fin 4096 → EReal} (hs : ∀ i k, ∃ r : ℝ, s i k = (r : EReal))
    (i k : Fin 4096) : ∃ w : ℝ, 0 < w ∧ weight s i k = (w : EReal) := by
  obtain ⟨m, hm⟩ := rowMax_real hs i
  obtain ⟨r, hr⟩ := hs i k
  exact ⟨Real.exp (r - m), Real.exp_pos _, by rw [weight, hr, hm, ← EReal.coe_sub, Ideal.exp_coe]⟩

/-- The normaliser of a row of real scores is a positive real. -/
theorem normaliser_real_pos {s : Fin 4096 → Fin 4096 → EReal} (hs : ∀ i k, ∃ r : ℝ, s i k = (r : EReal))
    (i : Fin 4096) : ∃ L : ℝ, 0 < L ∧ normaliser s i = (L : EReal) := by
  choose w hwpos hw using weight_real_pos hs
  refine ⟨∑ k, w i k, Finset.sum_pos (fun k _ => hwpos i k) Finset.univ_nonempty, ?_⟩
  rw [normaliser, coe_sum]
  simp only [hw]

/-- For real scores and real values, dividing the mixed sum by the normaliser is mixing with each weight divided
    by it. -/
theorem mix_agree {s : Fin 4096 → Fin 4096 → EReal} {V : Fin 4096 → Fin 1024 → EReal}
    (hs : ∀ i k, ∃ r : ℝ, s i k = (r : EReal)) (hV : ∀ k j, ∃ r : ℝ, V k j = (r : EReal))
    (i : Fin 4096) (j : Fin 1024) : mixThenDivide s V i j = divideThenMix s V i j := by
  choose w _ hw using weight_real_pos hs
  obtain ⟨L, hL, hLe⟩ := normaliser_real_pos hs i
  choose v hv using hV
  rw [mixThenDivide, divideThenMix, hLe]
  simp only [hw, hv]
  exact div_mix (fun k => w i k) (fun k => v k j) L hL.ne'

/-! ### The two arrangements -/

/-- With every entry real, the scale on the query with the division after mixing gives the same result as the scale
    on the scores with each weight divided before mixing. -/
theorem arrangements_agree
    (X : FVec Ideal (⟨2, ![4096, 1024]⟩ : Shape) .f32)
    (Wq : FVec Ideal (⟨2, ![1024, 1024]⟩ : Shape) .f32) (bq : FVec Ideal (⟨1, ![1024]⟩ : Shape) .f32)
    (Wk : FVec Ideal (⟨2, ![1024, 1024]⟩ : Shape) .f32) (bk : FVec Ideal (⟨1, ![1024]⟩ : Shape) .f32)
    (Wv : FVec Ideal (⟨2, ![1024, 1024]⟩ : Shape) .f32) (bv : FVec Ideal (⟨1, ![1024]⟩ : Shape) .f32)
    (hX : AllReal X) (hWq : AllReal Wq) (hbq : AllReal bq) (hWk : AllReal Wk) (hbk : AllReal bk)
    (hWv : AllReal Wv) (hbv : AllReal bv)
    (c : ℝ) :
    attnScaledQuery X Wq bq Wk bk Wv bv (c : EReal) = attnScaledScores X Wq bq Wk bk Wv bv (c : EReal) := by
  have hQ := lin_real (X := grid2 X) (W := grid2 Wq) (b := grid1 bq) (grid2_real hX) (grid2_real hWq) (grid1_real hbq)
  have hK := lin_real (X := grid2 X) (W := grid2 Wk) (b := grid1 bk) (grid2_real hX) (grid2_real hWk) (grid1_real hbk)
  have hV := lin_real (X := grid2 X) (W := grid2 Wv) (b := grid1 bv) (grid2_real hX) (grid2_real hWv) (grid1_real hbv)
  funext idx
  unfold attnScaledQuery attnScaledScores
  rw [scores_agree hQ hK c]
  exact mix_agree (scoresThenScale_real hQ hK c) hV (idx 0) (idx 1)

end Cert.SelfAttn

end
-- ==== Proof.Consts.lean ====
/-
  The three float words the programs spell, as the extended reals they denote: the scale `2^-5 = 1/32` (both as
  a literal word and as the quotient `1.0 / sqrt 1024.0`), and `-∞`, the start of a running maximum.
  Unfolding a float word is done in this one module only.
-/
import Idealize.ShloMosaic.PureOps.Ideal

noncomputable section

namespace Cert.SelfAttn.Consts

open Idealize.ShloMosaic

/-- The word `0x3D000000` has sign `+`, exponent field `122` and a zero fraction: `2^23 · 2^(122-127-23) = 2^-5`. -/
theorem scale_word : Ideal.ofBits .f32 0x3D000000#32 = ((1 / 32 : ℝ) : EReal) := by
  simp [Ideal.ofBits, Ideal.ieee, -EReal.coe_mul]; norm_num

/-- The word `0x3F800000` is `1`. -/
theorem one_word : Ideal.ofBits .f32 0x3F800000#32 = ((1 : ℝ) : EReal) := by
  simp [Ideal.ofBits, Ideal.ieee, -EReal.coe_mul]; norm_num

/-- The word `0x44800000` has exponent field `137` and a zero fraction: `2^23 · 2^(137-127-23) = 2^10 = 1024`. -/
theorem k1024_word : Ideal.ofBits .f32 0x44800000#32 = ((1024 : ℝ) : EReal) := by
  simp [Ideal.ofBits, Ideal.ieee, -EReal.coe_mul]; norm_num

/-- `sqrt 1024 = 32` because `1024 = 32^2` and `32 ≥ 0`. -/
theorem sqrt_1024 : Real.sqrt 1024 = 32 := by
  rw [show (1024 : ℝ) = 32 ^ 2 by norm_num]
  exact Real.sqrt_sq (by norm_num)

/-- `1.0 / sqrt 1024.0 = 1 / 32`: the square root is the nonzero real `32`, so the quotient is `1 · (1/32)`. -/
theorem scale_quotient :
    Ideal.div (Ideal.ofBits .f32 0x3F800000#32) (Ideal.sqrt (Ideal.ofBits .f32 0x44800000#32))
      = ((1 / 32 : ℝ) : EReal) := by
  rw [one_word, k1024_word, Ideal.sqrt_coe, if_neg (by norm_num), sqrt_1024,
    Ideal.div_coe (by norm_num : (32 : ℝ) ≠ 0), ← EReal.coe_mul, one_mul]

/-- The word `0xFF800000` has sign `-`, an all-ones exponent field and a zero fraction: `-∞`. -/
theorem neg_inf_word : Ideal.ofBits .f32 0xFF800000#32 = (⊥ : EReal) := by
  simp [Ideal.ofBits, Ideal.ieee]

end Cert.SelfAttn.Consts

end
-- ==== Proof.lean ====
/-
  Single-head self-attention over 4096 tokens of 1024 features: a two-kernel program against its plain reference,
  equal as extended reals whenever every input is finite.

  Both programs form queries, keys and values by three affine layers of the token array, score every query against
  every key, turn each row of scores into softmax weights (exponentials of the differences from the row's maximum,
  divided by their sum) and mix the values with them. They differ in two places. The kernel program multiplies the
  QUERIES by the scale 1/32 before the score product, the reference multiplies the SCORES by 1 / sqrt 1024 after it;
  the two constants are the same real number, and a constant factor moves across a finite sum of real products. The
  kernel program divides the MIXED values by the row's sum of weights, the reference divides each WEIGHT before mixing;
  with real scores every weight is a positive real, so the sum is a nonzero real and the division moves across the
  finite sum. Both laws fail at infinities, which is where the precondition is used: finite inputs make every layer
  entry, every score and every weight a real number (Proof/Finite.lean, Proof/Algebra.lean).

  The kernel program's result is read off its run: the second kernel's output array is the attention of the first
  kernel's three output arrays, which are the three layers of the launched arguments (Proof/KernelRun.lean,
  Proof/Region0.lean, Proof/Region1.lean, Proof/KernelValue.lean, over the body arithmetic of Proof/Payload.lean). The
  reference's result is its operations' composed term read index by index (Proof/RefValue.lean). The idealization
  rewrote no operation, so the kernel program and its idealization are one text and that conjunct is trivial.
-/
import proofs.«120721_j30837865185734_2_alg».proof.Defs
import proofs.«120721_j30837865185734_2_alg».proof.Proof.Gen.Kernel
import proofs.«120721_j30837865185734_2_alg».proof.Proof.Gen.Kernel.Frame
import proofs.«120721_j30837865185734_2_alg».proof.Proof.Gen.KernelIdeal
import proofs.«120721_j30837865185734_2_alg».proof.Proof.Gen.KernelIdeal.Frame
import proofs.«120721_j30837865185734_2_alg».proof.Proof.Gen.ReferenceIdeal
import proofs.«120721_j30837865185734_2_alg».proof.Proof.Gen.ReferenceIdeal.Run
import proofs.«120721_j30837865185734_2_alg».proof.Proof.Gen.Pre_finite_inputs
import proofs.«120721_j30837865185734_2_alg».proof.Proof.KernelRun
import proofs.«120721_j30837865185734_2_alg».proof.Proof.KernelValue
import proofs.«120721_j30837865185734_2_alg».proof.Proof.RefValue
import proofs.«120721_j30837865185734_2_alg».proof.Proof.Finite
import proofs.«120721_j30837865185734_2_alg».proof.Proof.Algebra
import proofs.«120721_j30837865185734_2_alg».proof.Proof.Consts
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- The kernel program's run ends with the result at attention with the scale on the queries and the division after
    mixing, of the launched arguments. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v4)
          = Cert.SelfAttn.attnScaledQuery (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (Ideal.ofBits .f32 0x3D000000#32)
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)) :=
  (θ_run Cert.KernelIdeal.defs _ _).mono
    (fun r h c => ⟨(h c).1.trans (Cert.SelfAttn.KernelValue.result_array m ρ c), (h c).2⟩)
    (Cert.SelfAttn.KernelRun.run_result m ρ)

/-- From memories that agree on the arguments, both idealized programs run and end with equal results: the two
    arrangements of attention agree on real entries, and the two scale constants are both 1/32. -/
theorem algebraic : Cert.algebraic_KernelIdeal_ReferenceIdeal := by
  intro m ρ m' ρ' hpre hagree
  refine ⟨_, kernel_run m ρ, ?_⟩
  refine (θ_run Cert.ReferenceIdeal.defs _ _).mono (fun r h c => ⟨(h c).1.trans ?_, (h c).2⟩)
    (Cert.ReferenceIdeal.Value.run (F := Ideal) m' ρ')
  obtain ⟨a0, a1, a2, a3, a4, a5, a6⟩ := hagree c
  obtain ⟨hX, hWq, hbq, hWk, hbk, hWv, hbv⟩ := Cert.SelfAttn.allReal_of_finite_inputs _ _ _ _ _ _ _ (hpre c)
  rw [Cert.SelfAttn.RefValue.reference_run m' c, a0, a1, a2, a3, a4, a5, a6,
    Cert.SelfAttn.Consts.scale_word, Cert.SelfAttn.Consts.scale_quotient]
  exact (Cert.SelfAttn.arrangements_agree _ _ _ _ _ _ _ hX hWq hbq hWk hbk hWv hbv (1 / 32)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
